-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S64x160 : S_.BroadcastsInDim S64x160 (![] : Fin 0 → Fin S64x160.rank)
  reducesTo_S64x160_S_d0_1 : S64x160.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S32x64 .f32) (main_arg6 : FVec F S32 .f32) (main_arg7 : FVec F S1x32 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1x32 .f32 := Host.absf main_arg7
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1000000 32) (main_arg2 : FVec F S1000000x32 .f32) (main_arg3 : FVec F S64x160 .f32) (main_arg4 : FVec F S64 .f32) (main_arg5 : FVec F S32x64 .f32) (main_arg6 : FVec F S32 .f32) (main_arg7 : FVec F S1x32 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x32 .f32 := Host.absf main_arg2
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S64x160 .f32 := Host.absf main_arg3
  let main_cst_2 : FVec F S_ .f32 := constant S_ .f32 0x7F800000#32
  let main_v10 : FVec F S64x160 .f32 := broadcastInDim S64x160 ![] bcast_S_S64x160 main_cst_2
  let main_v11 : IVec S64x160 1 := cmpf .olt main_v9 main_v10
  let main_c_3 : IVec S_ 1 := constantI S_ 1 1#1
  let main_v12 : IVec S_ 1 := (fun x v => Host.reduce IntOp.andi x v reducesTo_S64x160_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x128 : Shape := ⟨2, ![1000000, 128]⟩
abbrev S64x64 : Shape := ⟨2, ![64, 64]⟩
abbrev S64x32 : Shape := ⟨2, ![64, 32]⟩
abbrev S128x64 : Shape := ⟨2, ![128, 64]⟩
abbrev S32x1 : Shape := ⟨2, ![32, 1]⟩
abbrev S999424x128 : Shape := ⟨2, ![999424, 128]⟩
abbrev S999424x32 : Shape := ⟨2, ![999424, 32]⟩
abbrev S999424 : Shape := ⟨1, ![999424]⟩
abbrev S4096x128 : Shape := ⟨2, ![4096, 128]⟩
abbrev S4096x32 : Shape := ⟨2, ![4096, 32]⟩
abbrev S4096 : Shape := ⟨1, ![4096]⟩
abbrev S4096x64 : Shape := ⟨2, ![4096, 64]⟩
abbrev S1x64 : Shape := ⟨2, ![1, 64]⟩
abbrev S4096x1 : Shape := ⟨2, ![4096, 1]⟩
abbrev S1x1 : Shape := ⟨2, ![1, 1]⟩
abbrev S576x128 : Shape := ⟨2, ![576, 128]⟩
abbrev S576x32 : Shape := ⟨2, ![576, 32]⟩
abbrev S576 : Shape := ⟨1, ![576]⟩
abbrev S576x64 : Shape := ⟨2, ![576, 64]⟩
abbrev S576x1 : Shape := ⟨2, ![576, 1]⟩

abbrev nBuf : Space → Nat
  | .hbm => 51
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x32, .f32⟩
  | .hbm, ⟨3, _⟩ => ⟨S64x160, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S1x1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S1000000x128, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x32, .f32⟩
  | .hbm, ⟨37, _⟩ => ⟨S32x64, .f32⟩
  | .hbm, ⟨38, _⟩ => ⟨S128x64, .f32⟩
  | .hbm, ⟨39, _⟩ => ⟨S64x32, .f32⟩
  | .hbm, ⟨40, _⟩ => ⟨S32x1, .f32⟩
  | .hbm, ⟨41, _⟩ => ⟨S999424x128, .f32⟩
  | .hbm, ⟨42, _⟩ => ⟨S999424x32, .f32⟩
  | .hbm, ⟨43, _⟩ => ⟨S999424, .f32⟩
  | .hbm, ⟨44, _⟩ => ⟨S576x128, .f32⟩
  | .hbm, ⟨45, _⟩ => ⟨S576x32, .f32⟩
  | .hbm, ⟨46, _⟩ => ⟨S576, .f32⟩
  | .hbm, ⟨47, _⟩ => ⟨S1000000, .f32⟩
  | .hbm, ⟨48, _⟩ => ⟨S_, .f32⟩
  | .hbm, ⟨49, _⟩ => ⟨S1000000, .f32⟩
  | .hbm, ⟨50, _⟩ => ⟨S1000000, .i1⟩
  | .local _ .vmem, ⟨0, _⟩ => ⟨S4096x128, .f32⟩
  | .local _ .vmem, ⟨1, _⟩ => ⟨S4096x128, .f32⟩
  | .local _ .vmem, ⟨2, _⟩ => ⟨S4096x32, .f32⟩
  | .local _ .vmem, ⟨3, _⟩ => ⟨S4096x32, .f32⟩
  | .local _ .vmem, ⟨4, _⟩ => ⟨S128x64, .f32⟩
  | .local _ .vmem, ⟨5, _⟩ => ⟨S32x64, .f32⟩
  | .local _ .vmem, ⟨6, _⟩ => ⟨S64, .f32⟩
  | .local _ .vmem, ⟨7, _⟩ => ⟨S64x32, .f32⟩
  | .local _ .vmem, ⟨8, _⟩ => ⟨S32, .f32⟩
  | .local _ .vmem, ⟨9, _⟩ => ⟨S32x1, .f32⟩
  | .local _ .vmem, ⟨10, _⟩ => ⟨S1, .f32⟩
  | .local _ .vmem, ⟨11, _⟩ => ⟨S4096, .f32⟩
  | .local _ .vmem, ⟨12, _⟩ => ⟨S4096, .f32⟩
  | .local _ .vmem, ⟨13, _⟩ => ⟨S576x128, .f32⟩
  | .local _ .vmem, ⟨14, _⟩ => ⟨S576x32, .f32⟩
  | .local _ .vmem, ⟨15, _⟩ => ⟨S128x64, .f32⟩
  | .local _ .vmem, ⟨16, _⟩ => ⟨S32x64, .f32⟩
  | .local _ .vmem, ⟨17, _⟩ => ⟨S64, .f32⟩
  | .local _ .vmem, ⟨18, _⟩ => ⟨S64x32, .f32⟩
  | .local _ .vmem, ⟨19, _⟩ => ⟨S32, .f32⟩
  | .local _ .vmem, ⟨20, _⟩ => ⟨S32x1, .f32⟩
  | .local _ .vmem, ⟨21, _⟩ => ⟨S1, .f32⟩
  | .local _ .vmem, ⟨22, _⟩ => ⟨S576, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22

abbrev nD : Nat := 1
abbrev τ : Topo := Topo.v7x

variable {F : FTy → Type} [FloatOps F]

abbrev grid0 : Pipeline.Grid := ⟨1, ![244], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  ![arg0.toNat]

abbrev stage1_0 : Fin 1 → Memref sig .tc .vmem S576x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S576x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S576 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x64_S1000000x64_S1000000x128_d1 : Shape.Concatenates [S1000000x64, S1000000x64] S1000000x128 1
  slices_S64x160_S64x64_0_0 : S64x160.Slices ![0, 0] S64x64
  transposes_S64x64_S64x64_1_0 : S64x64.Transposes [1, 0] S64x64
  slices_S64x160_S64x64_0_64 : S64x160.Slices ![0, 64] S64x64
  slices_S64x160_S64x32_0_128 : S64x160.Slices ![0, 128] S64x32
  transposes_S64x32_S32x64_1_0 : S64x32.Transposes [1, 0] S32x64
  concatenates_S64x64_S64x64_S128x64_d0 : Shape.Concatenates [S64x64, S64x64] S128x64 0
  transposes_S32x64_S64x32_1_0 : S32x64.Transposes [1, 0] S64x32
  transposes_S1x32_S32x1_1_0 : S1x32.Transposes [1, 0] S32x1
  slices_S1000000x128_S999424x128_0_0 : S1000000x128.Slices ![0, 0] S999424x128
  slices_S1000000x32_S999424x32_0_0 : S1000000x32.Slices ![0, 0] S999424x32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  shapeCasts_S4096x1_S4096 : S4096x1.ShapeCasts S4096
  inb_S4096_S4096_0 : ∀ a, (![0] : Fin 1 → Nat) a + S4096.size a ≤ S4096.size a
  h_S4096 : 0 < S4096.numel
  slices_S1000000x128_S576x128_999424_0 : S1000000x128.Slices ![999424, 0] S576x128
  slices_S1000000x32_S576x32_999424_0 : S1000000x32.Slices ![999424, 0] S576x32
  inb_S576x128_S576x128_0_0 : ∀ a, (![0, 0] : Fin 2 → Nat) a + S576x128.size a ≤ S576x128.size a
  h_S576x128 : 0 < S576x128.numel
  shapeCasts_S576x128_S576x128 : S576x128.ShapeCasts S576x128
  inb_S576x32_S576x32_0_0 : ∀ a, (![0, 0] : Fin 2 → Nat) a + S576x32.size a ≤ S576x32.size a
  h_S576x32 : 0 < S576x32.numel
  shapeCasts_S576x32_S576x32 : S576x32.ShapeCasts S576x32
  broadcasts_S1x64_S576x64 : S1x64.Broadcasts S576x64
  broadcasts_S1x32_S576x32 : S1x32.Broadcasts S576x32
  broadcasts_S1x1_S576x1 : S1x1.Broadcasts S576x1
  shapeCasts_S576x1_S576 : S576x1.ShapeCasts S576
  inb_S576_S576_0 : ∀ a, (![0] : Fin 1 → Nat) a + S576.size a ≤ S576.size a
  h_S576 : 0 < S576.numel
  concatenates_S999424_S576_S1000000_d0 : Shape.Concatenates [S999424, S576] S1000000 0
  gather_S100000x64_S1000000x1_S1000000x64_1_0_n_n_0_1_164_wf : GatherDims.WF S100000x64 S1000000x1 S1000000x64 [1] [0] [] [0] [] 1 ![1, 64]
  dot_S4096x128_S128x64_S4096x64_1_0_0_1_n_n_wf : DotDims.WF S4096x128 S128x64 S4096x64 [1] [0] [0] [1] [] []
  dot_S4096x32_S32x64_S4096x64_1_0_0_1_n_n_wf : DotDims.WF S4096x32 S32x64 S4096x64 [1] [0] [0] [1] [] []
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []
  dot_S576x128_S128x64_S576x64_1_0_0_1_n_n_wf : DotDims.WF S576x128 S128x64 S576x64 [1] [0] [0] [1] [] []
  dot_S576x32_S32x64_S576x64_1_0_0_1_n_n_wf : DotDims.WF S576x32 S32x64 S576x64 [1] [0] [0] [1] [] []
  dot_S576x64_S64x32_S576x32_1_0_0_1_n_n_wf : DotDims.WF S576x64 S64x32 S576x32 [1] [0] [0] [1] [] []
  dot_S576x32_S32x1_S576x1_1_0_0_1_n_n_wf : DotDims.WF S576x32 S32x1 S576x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S999424x128.size a
  hwx0_0 : ∀ i : grid0.Coords, EltTy.bits .f32 = 32 ∨ (Rect.block (s := S999424x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S999424x32.size a
  hwx0_1 : ∀ i : grid0.Coords, EltTy.bits .f32 = 32 ∨ (Rect.block (s := S999424x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096.size a ≤ S999424.size a
  hwx0_9 : ∀ i : grid0.Coords, EltTy.bits .f32 = 32 ∨ (Rect.block (s := S999424) S4096.size (cc0_transform_9 i) (hinb0_9 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S576x128.size a ≤ S576x128.size a
  hwx1_0 : ∀ i : grid1.Coords, EltTy.bits .f32 = 32 ∨ (Rect.block (s := S576x128) S576x128.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S576x32.size a ≤ S576x32.size a
  hwx1_1 : ∀ i : grid1.Coords, EltTy.bits .f32 = 32 ∨ (Rect.block (s := S576x32) S576x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 1
  hreads1_9 : ∀ i i' : grid1.Coords, (∀ a, reads1_9 a = true → i a = i' a) → cc1_transform_9 i = cc1_transform_9 i'
  hinb1_9 : ∀ (i : grid1.Coords) a, (cc1_transform_9 i a + 1) * S576.size a ≤ S576.size a
  hwx1_9 : ∀ i : grid1.Coords, EltTy.bits .f32 = 32 ∨ (Rect.block (s := S576) S576.size (cc1_transform_9 i) (hinb1_9 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf
def dot_S576x128_S128x64_S576x64_1_0_0_1_n_n : DotDims S576x128 S128x64 S576x64 where
  lhsContracting := [1]
  rhsContracting := [0]
  lhsNonContracting := [0]
  rhsNonContracting := [1]
  lhsBatch := []
  rhsBatch := []
  wf := dot_S576x128_S128x64_S576x64_1_0_0_1_n_n_wf
def dot_S576x32_S32x64_S576x64_1_0_0_1_n_n : DotDims S576x32 S32x64 S576x64 where
  lhsContracting := [1]
  rhsContracting := [0]
  lhsNonContracting := [0]
  rhsNonContracting := [1]
  lhsBatch := []
  rhsBatch := []
  wf := dot_S576x32_S32x64_S576x64_1_0_0_1_n_n_wf
def dot_S576x64_S64x32_S576x32_1_0_0_1_n_n : DotDims S576x64 S64x32 S576x32 where
  lhsContracting := [1]
  rhsContracting := [0]
  lhsNonContracting := [0]
  rhsNonContracting := [1]
  lhsBatch := []
  rhsBatch := []
  wf := dot_S576x64_S64x32_S576x32_1_0_0_1_n_n_wf
def dot_S576x32_S32x1_S576x1_1_0_0_1_n_n : DotDims S576x32 S32x1 S576x1 where
  lhsContracting := [1]
  rhsContracting := [0]
  lhsNonContracting := [0]
  rhsNonContracting := [1]
  lhsBatch := []
  rhsBatch := []
  wf := dot_S576x32_S32x1_S576x1_1_0_0_1_n_n_wf

abbrev win0_0 : Pipeline.Window sig grid0 :=
  Pipeline.Window.ofSpec (Memref.whole main_v28) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v31) S576x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v32) S576x32.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S576.size cc1_transform_9 reads1_9 true false 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x160 : Shape := ⟨2, ![1000000, 160]⟩
abbrev S160x64 : Shape := ⟨2, ![160, 64]⟩
abbrev S1x64 : Shape := ⟨2, ![1, 64]⟩
abbrev S64x32 : Shape := ⟨2, ![64, 32]⟩
abbrev S32x1 : Shape := ⟨2, ![32, 1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x32, .f32⟩
  | .hbm, ⟨3, _⟩ => ⟨S64x160, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S1x1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S1000000x160, .f32⟩
  | .hbm, ⟨32, _⟩ => ⟨S160x64, .f32⟩
  | .hbm, ⟨33, _⟩ => ⟨S1000000x64, .f32⟩
  | .hbm, ⟨34, _⟩ => ⟨S1x64, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S1000000x64, .f32⟩
  | .hbm, ⟨39, _⟩ => ⟨S1000000x64, .f32⟩
  | .hbm, ⟨40, _⟩ => ⟨S64x32, .f32⟩
  | .hbm, ⟨41, _⟩ => ⟨S1000000x32, .f32⟩
  | .hbm, ⟨42, _⟩ => ⟨S1x32, .f32⟩
  | .hbm, ⟨43, _⟩ => ⟨S1000000x32, .f32⟩
  | .hbm, ⟨44, _⟩ => ⟨S1000000x32, .f32⟩
  | .hbm, ⟨45, _⟩ => ⟨S_, .f32⟩
  | .hbm, ⟨46, _⟩ => ⟨S1000000x32, .f32⟩
  | .hbm, ⟨47, _⟩ => ⟨S1000000x32, .f32⟩
  | .hbm, ⟨48, _⟩ => ⟨S32x1, .f32⟩
  | .hbm, ⟨49, _⟩ => ⟨S1000000x1, .f32⟩
  | .hbm, ⟨50, _⟩ => ⟨S1x1, .f32⟩
  | .hbm, ⟨51, _⟩ => ⟨S1000000x1, .f32⟩
  | .hbm, ⟨52, _⟩ => ⟨S1000000x1, .f32⟩
  | .hbm, ⟨53, _⟩ => ⟨S1000000, .f32⟩
  | .hbm, ⟨54, _⟩ => ⟨S1000000, .f32⟩
  | .hbm, ⟨55, _⟩ => ⟨S1000000, .f32⟩
  | .hbm, ⟨56, _⟩ => ⟨S_, .f32⟩
  | .hbm, ⟨57, _⟩ => ⟨S1000000, .f32⟩
  | .hbm, ⟨58, _⟩ => ⟨S1000000, .f32⟩
  | .hbm, ⟨59, _⟩ => ⟨S_, .f32⟩
  | .hbm, ⟨60, _⟩ => ⟨S1000000, .f32⟩
  | .hbm, ⟨61, _⟩ => ⟨S1000000, .f32⟩
  | .hbm, ⟨62, _⟩ => ⟨S_, .f32⟩
  | .hbm, ⟨63, _⟩ => ⟨S1000000, .f32⟩
  | .hbm, ⟨64, _⟩ => ⟨S1000000, .i1⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x64_S1000000x64_S1000000x32_S1000000x160_d1 : Shape.Concatenates [S1000000x64, S1000000x64, S1000000x32] S1000000x160 1
  transposes_S64x160_S160x64_1_0 : S64x160.Transposes [1, 0] S160x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S32x64_S64x32_1_0 : S32x64.Transposes [1, 0] S64x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  transposes_S1x32_S32x1_1_0 : S1x32.Transposes [1, 0] S32x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x64_S1000000x1_S1000000x64_1_0_n_n_0_1_164_wf : GatherDims.WF S100000x64 S1000000x1 S1000000x64 [1] [0] [] [0] [] 1 ![1, 64]
  dot_S1000000x160_S160x64_S1000000x64_1_0_0_1_n_n_wf : DotDims.WF S1000000x160 S160x64 S1000000x64 [1] [0] [0] [1] [] []
  dot_S1000000x64_S64x32_S1000000x32_1_0_0_1_n_n_wf : DotDims.WF S1000000x64 S64x32 S1000000x32 [1] [0] [0] [1] [] []
  dot_S1000000x32_S32x1_S1000000x1_1_0_0_1_n_n_wf : DotDims.WF S1000000x32 S32x1 S1000000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x160_S160x64_S1000000x64_1_0_0_1_n_n : DotDims S1000000x160 S160x64 S1000000x64 where
  lhsContracting := [1]
  rhsContracting := [0]
  lhsNonContracting := [0]
  rhsNonContracting := [1]
  lhsBatch := []
  rhsBatch := []
  wf := dot_S1000000x160_S160x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf

class Facts : Prop extends Facts₀ where

variable [Facts]
-- ==== Proof.KernelRun.lean ====
/-
  The whole program's run, with its two results named.

  The program is five stretches: host operations, the first launch (244 blocks of 4096 edges), two host slices, the
  second launch (the last 576 edges), and a host tail that joins the two score vectors and thresholds them.  The
  buffer contents at the end of each stretch are a fold through the program from the launch memory; the last of them
  is `W5`.  Every weakly fair execution terminates without a fault in a memory that holds, at the two result
  buffers, what `W5` holds there, and the arguments as launched.
-/
import proofs.«160512_j82162724372845_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the score buffer and the mask
    buffer at the last boundary's contents and every argument array as launched. -/
theorem run_full : θ_run defs (onTc (τ := τ) (main (F := F))) ⟨m, fun _ => 0, ρ⟩ (fun r => ∀ c : Dev nD,
      r.2.mem ((c.tc : Thread nD τ).loc main_v34) = W5 m ρ c (Proc.devRef .tc main_v34)
      ∧ r.2.mem ((c.tc : Thread nD τ).loc main_v36) = W5 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v34 (by decide)),
       h c _ (mem_uc main_v36 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.RunValue

end
-- ==== Proof.HostStages.lean ====
/-
  What the host operations of the program leave in the arrays its two kernel regions read, and what its last host
  operations make of the two regions' results.

  Before the first region the host gathers every edge's source row and target row, packs them side by side into one
  array of 128 columns, cuts the first-layer weights into the block that meets the packed rows (the transposed source
  and target columns stacked) and the block that meets the edge features (transposed), transposes the other two weight
  matrices, and slices off the first 999424 rows of the packed rows and of the edge features.  Between the regions it
  slices off the remaining 576 rows.  After the second region it joins the two regions' score vectors end to end and
  compares the result with one half.

  Every statement below names the contents of one array at one of these moments as the corresponding operations applied
  to the program's arguments.  The two gathers are carried as the reference program's own gather stages: both programs
  print the same chain of operations for them, so they are never opened.
-/
import proofs.«160512_j82162724372845_2_alg».proof.Proof.Gen.KernelIdeal.Frame
import proofs.«160512_j82162724372845_2_alg».proof.Proof.Gen.ReferenceIdeal.Read
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Every edge's source-node features: the node features gathered at the first row of the edge list. -/
def srcRows (c : Dev nD) : S1000000x64.Idx → EReal :=
  Cert.ReferenceIdeal.Read.val_main_v8 (F := Ideal) (m ((c : Thread nD τ).loc main_arg0)) (m ((c : Thread nD τ).loc main_arg1))
/-- Every edge's target-node features: the node features gathered at the second row of the edge list. -/
def tgtRows (c : Dev nD) : S1000000x64.Idx → EReal :=
  Cert.ReferenceIdeal.Read.val_main_v17 (F := Ideal) (m ((c : Thread nD τ).loc main_arg0)) (m ((c : Thread nD τ).loc main_arg1))
/-- The packed rows: for every edge its source features in columns 0 to 63 and its target features in columns 64 to
    127. -/
def packed (c : Dev nD) : S1000000x128.Idx → EReal :=
  concatenate S1000000x128 1 [⟨S1000000x64, srcRows m c⟩, ⟨S1000000x64, tgtRows m c⟩] concatenates_S1000000x64_S1000000x64_S1000000x128_d1

/-! ## When the first region is entered -/

/-- The packed rows are the two gathered arrays side by side. -/
theorem W1_v18 (c : Dev nD) : W1 m ρ c (Proc.devRef .tc main_v18)
    = packed m c := by
  show StableHlo.after hostOps0 (W0 m ρ c) (Proc.devRef .tc main_v18) = _
  after_results_simp
  rfl

/-- The first region's packed rows: rows 0 to 999423 of the packed rows. -/
theorem W1_v28 (c : Dev nD) : W1 m ρ c (Proc.devRef .tc main_v28)
    = extractStridedSlice S999424x128 ![0, 0] (packed m c) slices_S1000000x128_S999424x128_0_0 := by
  show StableHlo.after hostOps0 (W0 m ρ c) (Proc.devRef .tc main_v28) = _
  after_results_simp
  rfl

/-- The first region's edge features: rows 0 to 999423 of the edge features. -/
theorem W1_v29 (c : Dev nD) : W1 m ρ c (Proc.devRef .tc main_v29)
    = extractStridedSlice S999424x32 ![0, 0] (m ((c : Thread nD τ).loc main_arg2)) slices_S1000000x32_S999424x32_0_0 := by
  show StableHlo.after hostOps0 (W0 m ρ c) (Proc.devRef .tc main_v29) = _
  after_results_simp

/-- The first-layer weights that meet the packed rows: columns 0 to 63 and columns 64 to 127 of the 64 × 160 matrix, each
    transposed, the second stacked under the first. -/
theorem W1_v25 (c : Dev nD) : W1 m ρ c (Proc.devRef .tc main_v25)
    = concatenate S128x64 0 [⟨S64x64, transpose S64x64 [1, 0] (extractStridedSlice S64x64 ![0, 0] (m ((c : Thread nD τ).loc main_arg3)) slices_S64x160_S64x64_0_0) transposes_S64x64_S64x64_1_0⟩,
        ⟨S64x64, transpose S64x64 [1, 0] (extractStridedSlice S64x64 ![0, 64] (m ((c : Thread nD τ).loc main_arg3)) slices_S64x160_S64x64_0_64) transposes_S64x64_S64x64_1_0⟩] concatenates_S64x64_S64x64_S128x64_d0 := by
  show StableHlo.after hostOps0 (W0 m ρ c) (Proc.devRef .tc main_v25) = _
  after_results_simp
  rfl

/-- The first-layer weights that meet the edge features: columns 128 to 159 of the 64 × 160 matrix, transposed. -/
theorem W1_v24 (c : Dev nD) : W1 m ρ c (Proc.devRef .tc main_v24)
    = transpose S32x64 [1, 0] (extractStridedSlice S64x32 ![0, 128] (m ((c : Thread nD τ).loc main_arg3)) slices_S64x160_S64x32_0_128) transposes_S64x32_S32x64_1_0 := by
  show StableHlo.after hostOps0 (W0 m ρ c) (Proc.devRef .tc main_v24) = _
  after_results_simp

/-- The second-layer weights, transposed. -/
theorem W1_v26 (c : Dev nD) : W1 m ρ c (Proc.devRef .tc main_v26)
    = transpose S64x32 [1, 0] (m ((c : Thread nD τ).loc main_arg5)) transposes_S32x64_S64x32_1_0 := by
  show StableHlo.after hostOps0 (W0 m ρ c) (Proc.devRef .tc main_v26) = _
  after_results_simp

/-- The third-layer weights, transposed. -/
theorem W1_v27 (c : Dev nD) : W1 m ρ c (Proc.devRef .tc main_v27)
    = transpose S32x1 [1, 0] (m ((c : Thread nD τ).loc main_arg7)) transposes_S1x32_S32x1_1_0 := by
  show StableHlo.after hostOps0 (W0 m ρ c) (Proc.devRef .tc main_v27) = _
  after_results_simp

/-- No host operation writes the edge features. -/
theorem W1_arg2 (c : Dev nD) : W1 m ρ c (Proc.devRef .tc main_arg2)
    = m ((c : Thread nD τ).loc main_arg2) := by
  show StableHlo.after hostOps0 (W0 m ρ c) (Proc.devRef .tc main_arg2) = _
  after_results_simp

/-- No host operation writes the first bias. -/
theorem W1_arg4 (c : Dev nD) : W1 m ρ c (Proc.devRef .tc main_arg4)
    = m ((c : Thread nD τ).loc main_arg4) := by
  show StableHlo.after hostOps0 (W0 m ρ c) (Proc.devRef .tc main_arg4) = _
  after_results_simp

/-- No host operation writes the second bias. -/
theorem W1_arg6 (c : Dev nD) : W1 m ρ c (Proc.devRef .tc main_arg6)
    = m ((c : Thread nD τ).loc main_arg6) := by
  show StableHlo.after hostOps0 (W0 m ρ c) (Proc.devRef .tc main_arg6) = _
  after_results_simp

/-- No host operation writes the third bias. -/
theorem W1_arg8 (c : Dev nD) : W1 m ρ c (Proc.devRef .tc main_arg8)
    = m ((c : Thread nD τ).loc main_arg8) := by
  show StableHlo.after hostOps0 (W0 m ρ c) (Proc.devRef .tc main_arg8) = _
  after_results_simp

/-! ## When the second region is entered

The first region writes only its own result array, and the two host operations between the regions write only the two
tail slices; every array the first region merely reads is as it was when that region was entered. -/

/-- The second region's packed rows: rows 999424 to 999999 of the packed rows. -/
theorem W3_v31 (c : Dev nD) : W3 m ρ c (Proc.devRef .tc main_v31)
    = extractStridedSlice S576x128 ![999424, 0] (packed m c) slices_S1000000x128_S576x128_999424_0 := by
  show StableHlo.after hostOps1 (W2 m ρ c) (Proc.devRef .tc main_v31) = _
  after_results
  rw [W2_of_ne m ρ c main_v18 (by decide), W1_v18]

/-- The second region's edge features: rows 999424 to 999999 of the edge features. -/
theorem W3_v32 (c : Dev nD) : W3 m ρ c (Proc.devRef .tc main_v32)
    = extractStridedSlice S576x32 ![999424, 0] (m ((c : Thread nD τ).loc main_arg2)) slices_S1000000x32_S576x32_999424_0 := by
  show StableHlo.after hostOps1 (W2 m ρ c) (Proc.devRef .tc main_v32) = _
  after_results
  rw [W2_of_ne m ρ c main_arg2 (by decide), W1_arg2]

/-- The weights that meet the packed rows are unchanged. -/
theorem W3_v25 (c : Dev nD) : W3 m ρ c (Proc.devRef .tc main_v25) = W1 m ρ c (Proc.devRef .tc main_v25) := by
  have h : W3 m ρ c (Proc.devRef .tc main_v25) = W2 m ρ c (Proc.devRef .tc main_v25) := by
    show StableHlo.after hostOps1 (W2 m ρ c) (Proc.devRef .tc main_v25) = _
    after_results
  exact h.trans ((W2_arr m ρ c 2).trans (((dat0 (V1 m ρ) c).arrAt_in 2 rfl _).trans (A_eq0 (V1 m ρ) c 2)))

/-- The weights that meet the edge features are unchanged. -/
theorem W3_v24 (c : Dev nD) : W3 m ρ c (Proc.devRef .tc main_v24) = W1 m ρ c (Proc.devRef .tc main_v24) := by
  have h : W3 m ρ c (Proc.devRef .tc main_v24) = W2 m ρ c (Proc.devRef .tc main_v24) := by
    show StableHlo.after hostOps1 (W2 m ρ c) (Proc.devRef .tc main_v24) = _
    after_results
  exact h.trans ((W2_arr m ρ c 3).trans (((dat0 (V1 m ρ) c).arrAt_in 3 rfl _).trans (A_eq0 (V1 m ρ) c 3)))

/-- The transposed second-layer weights are unchanged. -/
theorem W3_v26 (c : Dev nD) : W3 m ρ c (Proc.devRef .tc main_v26) = W1 m ρ c (Proc.devRef .tc main_v26) := by
  have h : W3 m ρ c (Proc.devRef .tc main_v26) = W2 m ρ c (Proc.devRef .tc main_v26) := by
    show StableHlo.after hostOps1 (W2 m ρ c) (Proc.devRef .tc main_v26) = _
    after_results
  exact h.trans ((W2_arr m ρ c 5).trans (((dat0 (V1 m ρ) c).arrAt_in 5 rfl _).trans (A_eq0 (V1 m ρ) c 5)))

/-- The transposed third-layer weights are unchanged. -/
theorem W3_v27 (c : Dev nD) : W3 m ρ c (Proc.devRef .tc main_v27) = W1 m ρ c (Proc.devRef .tc main_v27) := by
  have h : W3 m ρ c (Proc.devRef .tc main_v27) = W2 m ρ c (Proc.devRef .tc main_v27) := by
    show StableHlo.after hostOps1 (W2 m ρ c) (Proc.devRef .tc main_v27) = _
    after_results
  exact h.trans ((W2_arr m ρ c 7).trans (((dat0 (V1 m ρ) c).arrAt_in 7 rfl _).trans (A_eq0 (V1 m ρ) c 7)))

/-- The first bias is unchanged. -/
theorem W3_arg4 (c : Dev nD) : W3 m ρ c (Proc.devRef .tc main_arg4) = W1 m ρ c (Proc.devRef .tc main_arg4) := by
  have h : W3 m ρ c (Proc.devRef .tc main_arg4) = W2 m ρ c (Proc.devRef .tc main_arg4) := by
    show StableHlo.after hostOps1 (W2 m ρ c) (Proc.devRef .tc main_arg4) = _
    after_results
  exact h.trans ((W2_arr m ρ c 4).trans (((dat0 (V1 m ρ) c).arrAt_in 4 rfl _).trans (A_eq0 (V1 m ρ) c 4)))

/-- The second bias is unchanged. -/
theorem W3_arg6 (c : Dev nD) : W3 m ρ c (Proc.devRef .tc main_arg6) = W1 m ρ c (Proc.devRef .tc main_arg6) := by
  have h : W3 m ρ c (Proc.devRef .tc main_arg6) = W2 m ρ c (Proc.devRef .tc main_arg6) := by
    show StableHlo.after hostOps1 (W2 m ρ c) (Proc.devRef .tc main_arg6) = _
    after_results
  exact h.trans ((W2_arr m ρ c 6).trans (((dat0 (V1 m ρ) c).arrAt_in 6 rfl _).trans (A_eq0 (V1 m ρ) c 6)))

/-- The third bias is unchanged. -/
theorem W3_arg8 (c : Dev nD) : W3 m ρ c (Proc.devRef .tc main_arg8) = W1 m ρ c (Proc.devRef .tc main_arg8) := by
  have h : W3 m ρ c (Proc.devRef .tc main_arg8) = W2 m ρ c (Proc.devRef .tc main_arg8) := by
    show StableHlo.after hostOps1 (W2 m ρ c) (Proc.devRef .tc main_arg8) = _
    after_results
  exact h.trans ((W2_arr m ρ c 8).trans (((dat0 (V1 m ρ) c).arrAt_in 8 rfl _).trans (A_eq0 (V1 m ρ) c 8)))

/-! ## After the second region -/

/-- The scores of all edges: the first region's 999424 scores followed by the second region's 576. -/
theorem W5_v34 (c : Dev nD) : W5 m ρ c (Proc.devRef .tc main_v34)
    = concatenate S1000000 0 [⟨S999424, (dat0 (V1 m ρ) c).arrAt 9 cfg0.N⟩, ⟨S576, (dat1 (V3 m ρ) c).arrAt 9 cfg1.N⟩] concatenates_S999424_S576_S1000000_d0 := by
  have h33 : W4 m ρ c (Proc.devRef .tc main_v33) = (dat1 (V3 m ρ) c).arrAt 9 cfg1.N := W4_arr m ρ c 9
  have h32 : W3 m ρ c (Proc.devRef .tc main_v30) = W2 m ρ c (Proc.devRef .tc main_v30) := by
    show StableHlo.after hostOps1 (W2 m ρ c) (Proc.devRef .tc main_v30) = _
    after_results
  have h30 : W4 m ρ c (Proc.devRef .tc main_v30) = (dat0 (V1 m ρ) c).arrAt 9 cfg0.N :=
    (W4_of_ne m ρ c main_v30 (by decide)).trans (h32.trans (W2_arr m ρ c 9))
  show StableHlo.after hostOps2 (W4 m ρ c) (Proc.devRef .tc main_v34) = _
  after_results
  rw [h30, h33]

/-- The joined scores, from the two regions' result arrays as the last host operations find them. -/
theorem W5_v34_joined (c : Dev nD) : W5 m ρ c (Proc.devRef .tc main_v34)
    = concatenate S1000000 0 [⟨S999424, W4 m ρ c (Proc.devRef .tc main_v30)⟩, ⟨S576, W4 m ρ c (Proc.devRef .tc main_v33)⟩] concatenates_S999424_S576_S1000000_d0 := by
  show StableHlo.after hostOps2 (W4 m ρ c) (Proc.devRef .tc main_v34) = _
  after_results

/-- The comparison, from the two regions' result arrays as the last host operations find them. -/
theorem W5_v36_joined (c : Dev nD) : W5 m ρ c (Proc.devRef .tc main_v36)
    = cmpf .oge (concatenate S1000000 0 [⟨S999424, W4 m ρ c (Proc.devRef .tc main_v30)⟩, ⟨S576, W4 m ρ c (Proc.devRef .tc main_v33)⟩] concatenates_S999424_S576_S1000000_d0)
        (broadcastInDim S1000000 ![] bcast_S_S1000000 (constant (F := Ideal) S_ .f32 0x3F000000#32)) := by
  show StableHlo.after hostOps2 (W4 m ρ c) (Proc.devRef .tc main_v36) = _
  after_results

/-- The second result: which scores are at least one half. -/
theorem W5_v36 (c : Dev nD) : W5 m ρ c (Proc.devRef .tc main_v36)
    = cmpf .oge (W5 m ρ c (Proc.devRef .tc main_v34)) (broadcastInDim S1000000 ![] bcast_S_S1000000 (constant (F := Ideal) S_ .f32 0x3F000000#32)) :=
  (W5_v36_joined m ρ c).trans
    (congrArg (fun x : S1000000.Idx → EReal => cmpf .oge x (broadcastInDim S1000000 ![] bcast_S_S1000000 (constant (F := Ideal) S_ .f32 0x3F000000#32)))
      (W5_v34_joined m ρ c).symm)

end Cert.KernelIdeal.Stages

end
-- ==== Proof.Spec.lean ====
/-
  The edge-scoring network, as one function of the arrays.

  Every edge e has a feature row of 160 entries: the 64 features of its source node, the 64 features of its target
  node and its own 32 edge features, laid end to end.  The score of the edge is the logistic of a three-layer
  perceptron applied to that row: 160 → 64 (relu) → 32 (relu) → 1.  Everything is read on the extended reals; sums
  and products there are commutative and associative, which is all the comparison below needs.

  Two spellings of the first layer are compared: one sum over the whole row of 160 entries, and the sum over the first
  128 entries (source and target features) plus the sum over the last 32 (edge features).  They agree because a sum
  over 160 = 128 + 32 positions splits at position 128 in any additive commutative monoid.
-/
import Idealize.ShloMosaic.PureOps.Ideal
import Idealize.ShloMosaic.Lib.ValueIdx

noncomputable section

namespace Cert.EdgeScore

open Idealize.ShloMosaic Idealize.ShloMosaic.ValueIdx

/-- The three-layer network on one feature row `x`: weights `W1` (64 × 160), `W2` (32 × 64), `W3` (32), biases
    `b1`, `b2`, `b3`; relu after the first two layers, the logistic function after the third. -/
def score (x : Fin 160 → EReal) (W1 : Fin 64 → Fin 160 → EReal) (b1 : Fin 64 → EReal)
    (W2 : Fin 32 → Fin 64 → EReal) (b2 : Fin 32 → EReal) (W3 : Fin 32 → EReal) (b3 : EReal) : EReal :=
  Ideal.logistic ((∑ k2 : Fin 32,
      max ((∑ k1 : Fin 64, max ((∑ k : Fin 160, x k * W1 k1 k) + b1 k1) 0 * W2 k2 k1) + b2 k2) 0 * W3 k2) + b3)

/-- The same network with the first layer split in two: the row's first 128 entries `u` against the weights `A`
    (128 × 64, already transposed), its last 32 entries `v` against `B` (32 × 64); the later layers' weights
    transposed too (`W2t` 64 × 32, `W3t` 32). -/
def scoreSplit (u : Fin 128 → EReal) (v : Fin 32 → EReal) (A : Fin 128 → Fin 64 → EReal) (B : Fin 32 → Fin 64 → EReal)
    (b1 : Fin 64 → EReal) (W2t : Fin 64 → Fin 32 → EReal) (b2 : Fin 32 → EReal) (W3t : Fin 32 → EReal) (b3 : EReal) : EReal :=
  Ideal.logistic ((∑ k2 : Fin 32,
      max ((∑ k1 : Fin 64, max (((∑ k : Fin 128, u k * A k k1) + (∑ k : Fin 32, v k * B k k1)) + b1 k1) 0 * W2t k1 k2) + b2 k2) 0
        * W3t k2) + b3)

/-- Position `k < 128` of a row of 160. -/
abbrev lo (k : Fin 128) : Fin 160 := ⟨k.val, by omega⟩
/-- Position `128 + k` of a row of 160. -/
abbrev hi (k : Fin 32) : Fin 160 := ⟨128 + k.val, by omega⟩

/-- A sum over 160 positions is the sum over the first 128 plus the sum over the last 32. -/
theorem sum_split (f : Fin 160 → EReal) : (∑ k : Fin 160, f k) = (∑ k : Fin 128, f (lo k)) + ∑ k : Fin 32, f (hi k) := by
  have h := Fin.sum_univ_add (M := EReal) (a := 128) (b := 32) f
  rw [h]
  refine congrArg₂ (· + ·) (Finset.sum_congr rfl fun k _ => congrArg f (Fin.ext rfl))
    (Finset.sum_congr rfl fun k _ => congrArg f (Fin.ext rfl))

/-- The split network on the two parts of a row, with the transposed pieces of the weights, is the network on the
    whole row. -/
theorem scoreSplit_eq (x : Fin 160 → EReal) (W1 : Fin 64 → Fin 160 → EReal) (b1 : Fin 64 → EReal)
    (W2 : Fin 32 → Fin 64 → EReal) (b2 : Fin 32 → EReal) (W3 : Fin 32 → EReal) (b3 : EReal) :
    scoreSplit (fun k => x (lo k)) (fun k => x (hi k)) (fun k j => W1 j (lo k)) (fun k j => W1 j (hi k)) b1
        (fun k1 k2 => W2 k2 k1) b2 W3 b3
      = score x W1 b1 W2 b2 W3 b3 := by
  unfold scoreSplit score
  simp only [sum_split (fun k => x k * W1 _ k)]

/-- The feature row of edge `e`: source features, target features, edge features. -/
def row (src tgt : (⟨2, ![1000000, 64]⟩ : Shape).Idx → EReal) (ef : (⟨2, ![1000000, 32]⟩ : Shape).Idx → EReal)
    (e : Fin 1000000) (k : Fin 160) : EReal :=
  if h : k.val < 64 then src (ix2 e ⟨k.val, h⟩)
  else if h' : k.val < 128 then tgt (ix2 e ⟨k.val - 64, by omega⟩)
  else ef (ix2 e ⟨k.val - 128, by omega⟩)

/-- Every edge's score, from the gathered source and target rows, the edge features and the parameters as given
    (`W1` 64 × 160, `W2` 32 × 64, `W3` 1 × 32). -/
def scores (src tgt : (⟨2, ![1000000, 64]⟩ : Shape).Idx → EReal) (ef : (⟨2, ![1000000, 32]⟩ : Shape).Idx → EReal)
    (W1 : (⟨2, ![64, 160]⟩ : Shape).Idx → EReal) (b1 : (⟨1, ![64]⟩ : Shape).Idx → EReal)
    (W2 : (⟨2, ![32, 64]⟩ : Shape).Idx → EReal) (b2 : (⟨1, ![32]⟩ : Shape).Idx → EReal)
    (W3 : (⟨2, ![1, 32]⟩ : Shape).Idx → EReal) (b3 : (⟨1, ![1]⟩ : Shape).Idx → EReal) :
    (⟨1, ![1000000]⟩ : Shape).Idx → EReal :=
  fun i => score (row src tgt ef ⟨(i 0).val, (i 0).isLt⟩) (fun j k => W1 (ix2 j k)) (fun j => b1 (ix1 j))
    (fun j k => W2 (ix2 j k)) (fun j => b2 (ix1 j)) (fun k => W3 (ix2 (0 : Fin 1) k)) (b3 (ix1 (0 : Fin 1)))

end Cert.EdgeScore

end
-- ==== Proof.LibColumnJoin.lean ====
/-
  Two [a, 64] arrays joined along the columns into one [a, 128] array, read at an entry.

  Column d < 64 of the joined array is column d of the first piece; column 64 + d is column d of the second.  This is
  how a real part and an imaginary part are laid side by side so that one 128-deep product does the work of two
  64-deep ones.
-/
import Idealize.ShloMosaic.Lib.Pipeline.Value
import Idealize.ShloMosaic.Lib.ValueIdx

noncomputable section

namespace Cert.ColumnJoin

open Idealize.ShloMosaic Idealize.ShloMosaic.ValueIdx

variable {α : Type}

/-- A column in the first half of the joined array reads the first piece. -/
theorem left_apply {a : ℕ} (x₁ x₂ : (⟨2, ![a, 64]⟩ : Shape).Idx → α)
    (h : Shape.Concatenates [⟨2, ![a, 64]⟩, ⟨2, ![a, 64]⟩] ⟨2, ![a, 128]⟩ 1) (p : Fin a) (d : Fin 64) :
    concatenate ⟨2, ![a, 128]⟩ 1 [⟨⟨2, ![a, 64]⟩, x₁⟩, ⟨⟨2, ![a, 64]⟩, x₂⟩] h (ix2 p ⟨d.val, by omega⟩)
      = x₁ (ix2 p d) :=
  concatenate_pair_apply_left 1 x₁ x₂ h _ rfl (ix2 p d) fun b => by
    match b with
    | ⟨0, _⟩ => rfl
    | ⟨1, _⟩ => rfl

/-- A column in the second half of the joined array reads the second piece, 64 columns to the left. -/
theorem right_apply {a : ℕ} (x₁ x₂ : (⟨2, ![a, 64]⟩ : Shape).Idx → α)
    (h : Shape.Concatenates [⟨2, ![a, 64]⟩, ⟨2, ![a, 64]⟩] ⟨2, ![a, 128]⟩ 1) (p : Fin a) (d : Fin 64) :
    concatenate ⟨2, ![a, 128]⟩ 1 [⟨⟨2, ![a, 64]⟩, x₁⟩, ⟨⟨2, ![a, 64]⟩, x₂⟩] h (ix2 p ⟨64 + d.val, by omega⟩)
      = x₂ (ix2 p d) :=
  concatenate_pair_apply_right 1 x₁ x₂ h _ rfl rfl (ix2 p d)
    (fun b hb => by
      match b with
      | ⟨0, _⟩ => rfl
      | ⟨1, _⟩ => exact absurd rfl hb)
    (by show d.val + 64 = 64 + d.val; omega)

end Cert.ColumnJoin

end
-- ==== Proof.LibTranspose.lean ====
/-
  A two-axis array with its axes exchanged, read at an entry.

  Exchanging the two axes of an [a, b] array gives a [b, a] array whose entry (j, i) is the entry (i, j) of the
  original, whatever the extents and the element type.
-/
import Idealize.ShloMosaic.Lib.Pipeline.Value
import Idealize.ShloMosaic.Lib.ValueIdx

noncomputable section

namespace Cert.Transpose

open Idealize.ShloMosaic Idealize.ShloMosaic.ValueIdx

/-- A transposed two-axis array read at (j, i) is the array at (i, j). -/
theorem swapped_apply {α : Type} {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun ax => by
    match ax with
    | ⟨0, _⟩ => rfl
    | ⟨1, _⟩ => rfl

end Cert.Transpose

end
-- ==== Proof.StageReads.lean ====
/-
  The layout steps around the two launches, each read at one entry.

  Before the network is applied the gathered source rows and target rows are laid side by side, so that the first
  128 entries of an edge's feature row sit in one array of 128 columns; the edge features are the row's last 32
  entries.  The million edges are then cut in two: the first 999424 edges and the last 576, edge 999424 + r being
  row r of the second part.  The first layer's weight matrix (64 × 160, one row per hidden unit) is cut into the
  columns that meet the source features, the target features and the edge features, and each cut is transposed, so
  that entry (k, j) of a transposed piece is the weight of hidden unit j at row position k.  At the end the two
  parts' score vectors are laid end to end: edge e < 999424 reads the first, edge e ≥ 999424 the second at
  e - 999424.

  Every statement below says which entry of the feature row (or of the weight matrix) one entry of such an array
  is.
-/
import proofs.«160512_j82162724372845_2_alg».proof.Proof.Spec
import proofs.«160512_j82162724372845_2_alg».proof.Proof.LibColumnJoin
import proofs.«160512_j82162724372845_2_alg».proof.Proof.LibTranspose
import Idealize.ShloMosaic.Lib.Pipeline.Value
import Idealize.ShloMosaic.Lib.ValueLayout
import Idealize.ShloMosaic.Lib.ValueIdx

noncomputable section

namespace Cert.EdgeScore.Stages

open Idealize.ShloMosaic Idealize.ShloMosaic.ValueIdx Cert.EdgeScore

variable (src tgt : (⟨2, ![1000000, 64]⟩ : Shape).Idx → EReal) (ef : (⟨2, ![1000000, 32]⟩ : Shape).Idx → EReal)

/-! ## The feature row, position by position -/

/-- Positions below 64 of an edge's feature row are its source node's features. -/
theorem row_src (e : Fin 1000000) (k : Fin 160) (h : k.val < 64) : row src tgt ef e k = src (ix2 e ⟨k.val, h⟩) :=
  dif_pos h

/-- Positions 64 to 127 are its target node's features. -/
theorem row_tgt (e : Fin 1000000) (k : Fin 160) (h : ¬ k.val < 64) (h' : k.val < 128) :
    row src tgt ef e k = tgt (ix2 e ⟨k.val - 64, by omega⟩) :=
  (dif_neg h).trans (dif_pos h')

/-- Positions 128 to 159 are its own edge features. -/
theorem row_edge (e : Fin 1000000) (k : Fin 160) (h : ¬ k.val < 64) (h' : ¬ k.val < 128) :
    row src tgt ef e k = ef (ix2 e ⟨k.val - 128, by omega⟩) :=
  (dif_neg h).trans (dif_neg h')

/-! ## Source and target rows side by side -/

/-- The source rows and the target rows laid side by side: column k of edge e is position k of the edge's
    feature row. -/
theorem packed_apply (hc : Shape.Concatenates [⟨2, ![1000000, 64]⟩, ⟨2, ![1000000, 64]⟩] ⟨2, ![1000000, 128]⟩ 1)
    (e : Fin 1000000) (k : Fin 128) :
    concatenate ⟨2, ![1000000, 128]⟩ 1 [⟨⟨2, ![1000000, 64]⟩, src⟩, ⟨⟨2, ![1000000, 64]⟩, tgt⟩] hc (ix2 e k)
      = row src tgt ef e (lo k) := by
  by_cases h : k.val < 64
  · -- a column of the left half: the source features
    have hk : k = ⟨(⟨k.val, h⟩ : Fin 64).val, by omega⟩ := Fin.ext rfl
    refine (congrArg (fun c => concatenate ⟨2, ![1000000, 128]⟩ 1
        [⟨⟨2, ![1000000, 64]⟩, src⟩, ⟨⟨2, ![1000000, 64]⟩, tgt⟩] hc (ix2 e c)) hk).trans ?_
    refine (Cert.ColumnJoin.left_apply src tgt hc e ⟨k.val, h⟩).trans ?_
    exact (row_src src tgt ef e (lo k) h).symm
  · -- a column of the right half: the target features, 64 columns to the left
    have hk : k = ⟨64 + (⟨k.val - 64, by omega⟩ : Fin 64).val, by omega⟩ := Fin.ext (by show k.val = 64 + (k.val - 64); omega)
    refine (congrArg (fun c => concatenate ⟨2, ![1000000, 128]⟩ 1
        [⟨⟨2, ![1000000, 64]⟩, src⟩, ⟨⟨2, ![1000000, 64]⟩, tgt⟩] hc (ix2 e c)) hk).trans ?_
    refine (Cert.ColumnJoin.right_apply src tgt hc e ⟨k.val - 64, by omega⟩).trans ?_
    exact (row_tgt src tgt ef e (lo k) h k.isLt).symm

/-- The first 999424 edges of the packed array: row r is edge r. -/
theorem packed_main (hc : Shape.Concatenates [⟨2, ![1000000, 64]⟩, ⟨2, ![1000000, 64]⟩] ⟨2, ![1000000, 128]⟩ 1)
    (hs : (⟨2, ![1000000, 128]⟩ : Shape).Slices ![0, 0] ⟨2, ![999424, 128]⟩) (r : Fin 999424) (k : Fin 128) :
    extractStridedSlice ⟨2, ![999424, 128]⟩ ![0, 0]
        (concatenate ⟨2, ![1000000, 128]⟩ 1 [⟨⟨2, ![1000000, 64]⟩, src⟩, ⟨⟨2, ![1000000, 64]⟩, tgt⟩] hc) hs (ix2 r k)
      = row src tgt ef ⟨r.val, by omega⟩ (lo k) :=
  (slice2_axis0_apply 0 _ hs r k ⟨r.val, by omega⟩ (Nat.zero_add _).symm).trans (packed_apply src tgt ef hc _ k)

/-- The last 576 edges of the packed array: row r is edge 999424 + r. -/
theorem packed_tail (hc : Shape.Concatenates [⟨2, ![1000000, 64]⟩, ⟨2, ![1000000, 64]⟩] ⟨2, ![1000000, 128]⟩ 1)
    (hs : (⟨2, ![1000000, 128]⟩ : Shape).Slices ![999424, 0] ⟨2, ![576, 128]⟩) (r : Fin 576) (k : Fin 128) :
    extractStridedSlice ⟨2, ![576, 128]⟩ ![999424, 0]
        (concatenate ⟨2, ![1000000, 128]⟩ 1 [⟨⟨2, ![1000000, 64]⟩, src⟩, ⟨⟨2, ![1000000, 64]⟩, tgt⟩] hc) hs (ix2 r k)
      = row src tgt ef ⟨999424 + r.val, by omega⟩ (lo k) :=
  (slice2_axis0_apply 999424 _ hs r k ⟨999424 + r.val, by omega⟩ rfl).trans (packed_apply src tgt ef hc _ k)

/-! ## The edge features -/

/-- Column k of the edge features of edge e is position 128 + k of the edge's feature row. -/
theorem edge_apply (e : Fin 1000000) (k : Fin 32) : ef (ix2 e k) = row src tgt ef e (hi k) := by
  have h : ¬ (hi k).val < 64 := by show ¬ 128 + k.val < 64; omega
  have h' : ¬ (hi k).val < 128 := by show ¬ 128 + k.val < 128; omega
  refine Eq.trans ?_ (row_edge src tgt ef e (hi k) h h').symm
  exact congrArg (fun c => ef (ix2 e c)) (Fin.ext (by show k.val = 128 + k.val - 128; omega))

/-- The first 999424 edges' features: row r is edge r. -/
theorem edge_main (hs : (⟨2, ![1000000, 32]⟩ : Shape).Slices ![0, 0] ⟨2, ![999424, 32]⟩) (r : Fin 999424) (k : Fin 32) :
    extractStridedSlice ⟨2, ![999424, 32]⟩ ![0, 0] ef hs (ix2 r k) = row src tgt ef ⟨r.val, by omega⟩ (hi k) :=
  (slice2_axis0_apply 0 ef hs r k ⟨r.val, by omega⟩ (Nat.zero_add _).symm).trans (edge_apply src tgt ef _ k)

/-- The last 576 edges' features: row r is edge 999424 + r. -/
theorem edge_tail (hs : (⟨2, ![1000000, 32]⟩ : Shape).Slices ![999424, 0] ⟨2, ![576, 32]⟩) (r : Fin 576) (k : Fin 32) :
    extractStridedSlice ⟨2, ![576, 32]⟩ ![999424, 0] ef hs (ix2 r k) = row src tgt ef ⟨999424 + r.val, by omega⟩ (hi k) :=
  (slice2_axis0_apply 999424 ef hs r k ⟨999424 + r.val, by omega⟩ rfl).trans (edge_apply src tgt ef _ k)

/-! ## The first layer's weights, cut and transposed -/

/-- The columns of the weight matrix that meet the source features (0 to 63) and the target features (64 to 127),
    each cut out and transposed, one above the other: entry (k, j) is the weight of hidden unit j at row
    position k. -/
theorem first_weights (W1 : (⟨2, ![64, 160]⟩ : Shape).Idx → EReal)
    (hs0 : (⟨2, ![64, 160]⟩ : Shape).Slices ![0, 0] ⟨2, ![64, 64]⟩) (hs1 : (⟨2, ![64, 160]⟩ : Shape).Slices ![0, 64] ⟨2, ![64, 64]⟩)
    (ht : (⟨2, ![64, 64]⟩ : Shape).Transposes [1, 0] ⟨2, ![64, 64]⟩)
    (hc : Shape.Concatenates [⟨2, ![64, 64]⟩, ⟨2, ![64, 64]⟩] ⟨2, ![128, 64]⟩ 0) (k : Fin 128) (j : Fin 64) :
    concatenate ⟨2, ![128, 64]⟩ 0
        [⟨⟨2, ![64, 64]⟩, transpose ⟨2, ![64, 64]⟩ [1, 0] (extractStridedSlice ⟨2, ![64, 64]⟩ ![0, 0] W1 hs0) ht⟩,
         ⟨⟨2, ![64, 64]⟩, transpose ⟨2, ![64, 64]⟩ [1, 0] (extractStridedSlice ⟨2, ![64, 64]⟩ ![0, 64] W1 hs1) ht⟩] hc (ix2 k j)
      = W1 (ix2 j (lo k)) := by
  by_cases h : k.val < 64
  · -- a row of the upper piece: a source-feature column of the weights
    refine (concatenate_pair_apply_left 0 _ _ hc (ix2 k j) rfl (ix2 (⟨k.val, h⟩ : Fin 64) j) fun b => by
      match b with
      | ⟨0, _⟩ => rfl
      | ⟨1, _⟩ => rfl).trans ?_
    refine (Cert.Transpose.swapped_apply _ ht j ⟨k.val, h⟩).trans ?_
    exact slice2_axis1_apply 0 W1 hs0 j ⟨k.val, h⟩ (lo k) (Nat.zero_add _).symm
  · -- a row of the lower piece: a target-feature column of the weights, 64 rows up
    have hk : k.val - 64 < 64 := by omega
    refine (concatenate_pair_apply_right 0 _ _ hc (ix2 k j) rfl rfl (ix2 (⟨k.val - 64, hk⟩ : Fin 64) j)
      (fun b hb => by
        match b with
        | ⟨0, _⟩ => exact absurd rfl hb
        | ⟨1, _⟩ => rfl)
      (by show k.val - 64 + 64 = k.val; omega)).trans ?_
    refine (Cert.Transpose.swapped_apply _ ht j ⟨k.val - 64, hk⟩).trans ?_
    exact slice2_axis1_apply 64 W1 hs1 j ⟨k.val - 64, hk⟩ (lo k) (by show k.val = 64 + (k.val - 64); omega)

/-- The columns of the weight matrix that meet the edge features (128 to 159), cut out and transposed: entry
    (k, j) is the weight of hidden unit j at row position 128 + k. -/
theorem edge_weights (W1 : (⟨2, ![64, 160]⟩ : Shape).Idx → EReal)
    (hs : (⟨2, ![64, 160]⟩ : Shape).Slices ![0, 128] ⟨2, ![64, 32]⟩) (ht : (⟨2, ![64, 32]⟩ : Shape).Transposes [1, 0] ⟨2, ![32, 64]⟩)
    (k : Fin 32) (j : Fin 64) :
    transpose ⟨2, ![32, 64]⟩ [1, 0] (extractStridedSlice ⟨2, ![64, 32]⟩ ![0, 128] W1 hs) ht (ix2 k j) = W1 (ix2 j (hi k)) :=
  (Cert.Transpose.swapped_apply _ ht j k).trans (slice2_axis1_apply 128 W1 hs j k (hi k) rfl)

/-! ## The two score vectors end to end -/

/-- The first part's 999424 scores followed by the second part's 576: edge e reads the first part when
    e < 999424, and otherwise the second part at e - 999424. -/
theorem joined {α : Type} (a : (⟨1, ![999424]⟩ : Shape).Idx → α) (b : (⟨1, ![576]⟩ : Shape).Idx → α)
    (hc : Shape.Concatenates [⟨1, ![999424]⟩, ⟨1, ![576]⟩] ⟨1, ![1000000]⟩ 0) (e : Fin 1000000) :
    concatenate ⟨1, ![1000000]⟩ 0 [⟨⟨1, ![999424]⟩, a⟩, ⟨⟨1, ![576]⟩, b⟩] hc (ix1 e)
      = if h : e.val < 999424 then a (ix1 ⟨e.val, h⟩) else b (ix1 ⟨e.val - 999424, by omega⟩) := by
  by_cases h : e.val < 999424
  · rw [dif_pos h]
    exact concatenate_pair_apply_left 0 a b hc (ix1 e) rfl (ix1 (⟨e.val, h⟩ : Fin 999424)) fun d => by
      match d with
      | ⟨0, _⟩ => rfl
  · rw [dif_neg h]
    have he : e.val - 999424 < 576 := by omega
    exact concatenate_pair_apply_right 0 a b hc (ix1 e) rfl rfl (ix1 (⟨e.val - 999424, he⟩ : Fin 576))
      (fun d hd => by
        -- a one-axis array has no axis other than the joined one
        have hlt : d.val < 1 := d.isLt
        exact absurd (Fin.ext (by show d.val = 0; omega)) hd)
      (by show e.val - 999424 + 999424 = e.val; omega)

/-! ## The statements meet the program's spelling

  The permutation of a transpose is a list of axes of the operand, [1, 0] : List (Fin 2), and the offsets of a cut
  are a function on the operand's axes; the checks below apply the statements to terms spelt that way. -/

example (W1 : (⟨2, ![64, 160]⟩ : Shape).Idx → EReal) (hs : (⟨2, ![64, 160]⟩ : Shape).Slices (![0, 128] : Fin 2 → Nat) ⟨2, ![64, 32]⟩)
    (ht : (⟨2, ![64, 32]⟩ : Shape).Transposes ([1, 0] : List (Fin 2)) ⟨2, ![32, 64]⟩) (k : Fin 32) (j : Fin 64) :
    transpose ⟨2, ![32, 64]⟩ ([1, 0] : List (Fin 2)) (extractStridedSlice ⟨2, ![64, 32]⟩ (![0, 128] : Fin 2 → Nat) W1 hs) ht (ix2 k j)
      = W1 (ix2 j (hi k)) :=
  edge_weights W1 hs ht k j

end Cert.EdgeScore.Stages

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibLayout.lean ====
/-
  Layout operations read at an index given by coordinates, beyond the library's forms: the keepdims column casts
  [a] ↔ [a,1], the column broadcast [a,1] → [a,b], the rank-3 casts and broadcasts a pairwise (row × column × channel)
  computation meets, a one-column slice of a matrix, a static element extraction, and the source index of a
  last-axis reduction. Every lemma is the library's general reading (an operand index with the same row-major
  position for a cast, the trailing coordinates with 0 on unit axes for a broadcast) with both indices written by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibLayout

open Idealize.ShloMosaic Idealize.ShloMosaic.ValueIdx

variable {α : Type}

/-! ## Shape casts -/

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to a vector [a] reads, at i, the operand at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] cast to [a, 1, 1] reads, at (i, u, w), the operand at (i, 0). -/
theorem shapeCast_a1_a11_apply {a : ℕ} (x : (⟨2, ![a, 1]⟩ : Shape).Idx → α)
    (h : (⟨2, ![a, 1]⟩ : Shape).ShapeCasts ⟨3, ![a, 1, 1]⟩) (i : Fin a) (u w : Fin 1) :
    shapeCast ⟨3, ![a, 1, 1]⟩ x h (ix3 i u w) = x (ix2 i (0 : Fin 1)) :=
  shapeCast_apply x h _ _ (by
    have hu : u.val = 0 := by omega
    have hw : w.val = 0 := by omega
    rw [Shape.rowMajor_val_three, Shape.rowMajor_val_two]
    show i.val * 1 + 0 = (i.val * 1 + u.val) * 1 + w.val
    rw [hu, hw, Nat.mul_one, Nat.add_zero, Nat.mul_one, Nat.add_zero])

/-- A vector [a] cast to [1, 1, a] reads, at (u, w, i), the operand at i. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- A matrix [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts -/

/-- A column [a, 1] broadcast to [a, b] reads, at (p, c), the operand at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An array [a, 1, 1] broadcast to [a, 1, c] reads, at (p, u, k), the operand at (p, 0, 0). -/
theorem broadcastTo_a11_a1c_apply {a c : ℕ} (v : (⟨3, ![a, 1, 1]⟩ : Shape).Idx → α)
    (h : (⟨3, ![a, 1, 1]⟩ : Shape).Broadcasts ⟨3, ![a, 1, c]⟩) (p : Fin a) (u : Fin 1) (k : Fin c) :
    broadcastTo ⟨3, ![a, 1, c]⟩ v h (ix3 p u k) = v (ix3 p (0 : Fin 1) (0 : Fin 1)) := by
  refine broadcastTo_apply v h (ix3 p u k) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A row [1, 1, c] broadcast to [a, b, c] reads, at (p, q, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An array [a, b, 1] broadcast to [a, b, c] reads, at (p, q, k), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array [a, 1, c] broadcast to [a, b, c] reads, at (p, q, k), the operand at (p, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-! ## One column of a matrix, one element of a vector -/

/-- The one-column slice of a matrix [n, m] at column o reads, at (i, u), the operand at (i, o). -/
theorem slice_column_apply {n m : ℕ} (o : ℕ) (X : (⟨2, ![n, m]⟩ : Shape).Idx → α)
    (h : (⟨2, ![n, m]⟩ : Shape).Slices ![0, o] ⟨2, ![n, 1]⟩) (i : Fin n) (u : Fin 1) (k : Fin m) (hk : k.val = o) :
    extractStridedSlice ⟨2, ![n, 1]⟩ ![0, o] X h (ix2 i u) = X (ix2 i k) :=
  slice2_axis1_apply o X h i u k (by have := u.isLt; omega)

/-- The element of a vector [n] extracted at the static position p is the operand at p. -/
theorem extractAt_ix1 {n : ℕ} (p : ℕ) (x : (⟨1, ![n]⟩ : Shape).Idx → α)
    (h : ∀ a, (![p] : Fin 1 → ℕ) a < (⟨1, ![n]⟩ : Shape).size a) (k : Fin n) (hk : k.val = p) :
    extractAt ![p] x h = x (ix1 k) := by
  unfold extractAt
  refine congrArg x (funext fun a => Fin.ext ?_)
  match a with
  | ⟨0, _⟩ => exact hk.symm

/-! ## The source index of a reduction over the last axis -/

/-- Reducing a matrix [a, b] over its columns: the source index over row r with column k is (r, k). -/
theorem lift_ix1_axis1 {a b : ℕ} (h : (⟨2, ![a, b]⟩ : Shape).Reduces [1] ⟨1, ![a]⟩) (r : Fin a) (k : Fin b) :
    h.lift (ix1 r) k = ix2 r k := by
  funext c
  refine Fin.ext ?_
  match c with
  | ⟨0, _⟩ => rfl
  | ⟨1, _⟩ => rfl

/-- Reducing an array [a, b, c] over its last axis: the source index over (r, s) with last coordinate k is (r, s, k). -/
theorem lift_ix2_axis2 {a b c : ℕ} (h : (⟨3, ![a, b, c]⟩ : Shape).Reduces [2] ⟨2, ![a, b]⟩) (r : Fin a) (s : Fin b)
    (k : Fin c) : h.lift (ix2 r s) k = ix3 r s k := by
  funext d
  refine Fin.ext ?_
  match d with
  | ⟨0, _⟩ => rfl
  | ⟨1, _⟩ => rfl
  | ⟨2, _⟩ => rfl

end Cert.LibLayout

end
-- ==== Proof.Payload0.lean ====
/-
  The arithmetic of one block of 4096 edges, read at an edge.

  The body of the kernel takes a block's rows of node features (128 entries: source then target), its rows of edge
  features (32 entries) and the network's parameters, and computes every row's score: a first layer whose product is
  taken in two parts (the 128 node entries, the 32 edge entries) and summed, a bias and a relu; a second layer, bias
  and relu; a third layer with one output, its bias, and the logistic function.  On the extended reals a change of
  format is the identity, a product onto the zero array is a plain sum of products, and a bias kept as a row and
  repeated over the rows reads its entry for the column; so at row p the body's result is the split network of the
  specification on row p of the two feature blocks.

  The reading goes layer by layer: each layer is named as a function of the arrays it reads, read at an entry, and
  the body is the composition of the three layers followed by the last bias and the logistic function.
-/
import proofs.«160512_j82162724372845_2_alg».proof.Proof.Gen.KernelIdeal.Skeleton
import proofs.«160512_j82162724372845_2_alg».proof.Proof.Spec
import proofs.«160512_j82162724372845_2_alg».proof.Proof.LibPlainMatmul
import proofs.«160512_j82162724372845_2_alg».proof.Proof.LibRowOps
import proofs.«160512_j82162724372845_2_alg».proof.Proof.LibLayout

noncomputable section

open scoped BigOperators

namespace Cert.KernelIdeal.Body

open Cert.KernelIdeal Cert.KernelIdeal.Gen Idealize.ShloMosaic Idealize.ShloMosaic.TcCoe Idealize.ShloMosaic.ValueIdx

/-- A product of two arrays, each cast to its own shape and narrowed, onto the zero array: at (p, q) the sum over k
    of left (p, k) · right (k, q).  The cast to the same shape and the narrowing change nothing on the extended
    reals. -/
theorem k0_narrowed_product_apply {a n b : ℕ}
    (wf : DotDims.WF ⟨2, ![a, n]⟩ ⟨2, ![n, b]⟩ ⟨2, ![a, b]⟩ [1] [0] [0] [1] [] [])
    (L : FVec Ideal ⟨2, ![a, n]⟩ .f32) (R : FVec Ideal ⟨2, ![n, b]⟩ .f32)
    (hL : (⟨2, ![a, n]⟩ : Shape).ShapeCasts ⟨2, ![a, n]⟩) (hR : (⟨2, ![n, b]⟩ : Shape).ShapeCasts ⟨2, ![n, b]⟩)
    (hb : FTy.bits .bf16 < FTy.bits .f32) (p : Fin a) (q : Fin b) :
    matmul (F := Ideal) (Cert.PlainMatmul.dims wf) none
        (truncf .bf16 (shapeCast ⟨2, ![a, n]⟩ L hL) hb) (truncf .bf16 (shapeCast ⟨2, ![n, b]⟩ R hR) hb)
        (constant ⟨2, ![a, b]⟩ .f32 0x00000000#32) (ix2 p q)
      = ∑ k : Fin n, L (ix2 p k) * R (ix2 k q) := by
  rw [shapeCast_self, shapeCast_self]
  exact Cert.PlainMatmul.zero_acc_apply wf none _ _ p q

/-! ## The first layer -/

/-- The first hidden layer of a block: the node features against the first 128 rows of weights plus the edge features
    against the last 32, plus the bias, then relu. -/
def k0_hidden1 (v0 : Vec Ideal S4096x128 .f32) (v3 : Vec Ideal S4096x32 .f32) (v6 : Vec Ideal S128x64 .f32)
    (v9 : Vec Ideal S32x64 .f32) (v15 : Vec Ideal S64 .f32) : FVec Ideal S4096x64 .f32 :=
  maximumf
    (addf
      (addf
        (matmul dot_S4096x128_S128x64_S4096x64_1_0_0_1_n_n none
          (truncf .bf16 (shapeCast S4096x128 v0 Gen.shapeCasts_S4096x128_S4096x128) Gen.bitsLt_bf16_f32)
          (truncf .bf16 (shapeCast S128x64 v6 Gen.shapeCasts_S128x64_S128x64) Gen.bitsLt_bf16_f32)
          (constant S4096x64 .f32 0x00000000#32))
        (matmul dot_S4096x32_S32x64_S4096x64_1_0_0_1_n_n none
          (truncf .bf16 (shapeCast S4096x32 v3 Gen.shapeCasts_S4096x32_S4096x32) Gen.bitsLt_bf16_f32)
          (truncf .bf16 (shapeCast S32x64 v9 Gen.shapeCasts_S32x64_S32x64) Gen.bitsLt_bf16_f32)
          (constant S4096x64 .f32 0x00000000#32)))
      (broadcastTo S4096x64 (shapeCast S1x64 v15 Gen.shapeCasts_S64_S1x64) Gen.broadcasts_S1x64_S4096x64))
    (broadcast S4096x64 (Scalar.ofBits .f32 0x00000000#32))

/-- The first hidden layer at row p, unit j. -/
theorem k0_hidden1_apply (v0 : Vec Ideal S4096x128 .f32) (v3 : Vec Ideal S4096x32 .f32) (v6 : Vec Ideal S128x64 .f32)
    (v9 : Vec Ideal S32x64 .f32) (v15 : Vec Ideal S64 .f32) (p : Fin 4096) (j : Fin 64) :
    k0_hidden1 v0 v3 v6 v9 v15 (ix2 p j)
      = max (((∑ k : Fin 128, v0 (ix2 p k) * v6 (ix2 k j)) + ∑ k : Fin 32, v3 (ix2 p k) * v9 (ix2 k j)) + v15 (ix1 j)) 0 := by
  unfold k0_hidden1
  rw [maximumf_apply, addf_apply, addf_apply, broadcast_apply]
  refine congrArg₂ max (congrArg₂ (· + ·) (congrArg₂ (· + ·) ?_ ?_) ?_) ?_
  · exact k0_narrowed_product_apply Gen.dot_S4096x128_S128x64_S4096x64_1_0_0_1_n_n_wf v0 v6 _ _ _ p j
  · exact k0_narrowed_product_apply Gen.dot_S4096x32_S32x64_S4096x64_1_0_0_1_n_n_wf v3 v9 _ _ _ p j
  · exact Cert.RowOps.row_repeated_apply v15 _ _ p j
  · exact Ideal.ofBits_zero_f32

/-! ## The second layer -/

/-- The second hidden layer of a block, from the first: the product with the 64 × 32 weights, the bias, relu. -/
def k0_hidden2 (h1 : FVec Ideal S4096x64 .f32) (v21 : Vec Ideal S64x32 .f32) (v26 : Vec Ideal S32 .f32) :
    FVec Ideal S4096x32 .f32 :=
  maximumf
    (addf
      (matmul dot_S4096x64_S64x32_S4096x32_1_0_0_1_n_n none
        (truncf .bf16 h1 Gen.bitsLt_bf16_f32)
        (truncf .bf16 (shapeCast S64x32 v21 Gen.shapeCasts_S64x32_S64x32) Gen.bitsLt_bf16_f32)
        (constant S4096x32 .f32 0x00000000#32))
      (broadcastTo S4096x32 (shapeCast S1x32 v26 Gen.shapeCasts_S32_S1x32) Gen.broadcasts_S1x32_S4096x32))
    (broadcast S4096x32 (Scalar.ofBits .f32 0x00000000#32))

/-- The second hidden layer at row p, unit j. -/
theorem k0_hidden2_apply (h1 : FVec Ideal S4096x64 .f32) (v21 : Vec Ideal S64x32 .f32) (v26 : Vec Ideal S32 .f32)
    (p : Fin 4096) (j : Fin 32) :
    k0_hidden2 h1 v21 v26 (ix2 p j) = max ((∑ k : Fin 64, h1 (ix2 p k) * v21 (ix2 k j)) + v26 (ix1 j)) 0 := by
  unfold k0_hidden2
  rw [maximumf_apply, addf_apply, broadcast_apply, shapeCast_self]
  refine congrArg₂ max (congrArg₂ (· + ·) ?_ ?_) ?_
  · exact Cert.PlainMatmul.zero_acc_apply Gen.dot_S4096x64_S64x32_S4096x32_1_0_0_1_n_n_wf none _ _ p j
  · exact Cert.RowOps.row_repeated_apply v26 _ _ p j
  · exact Ideal.ofBits_zero_f32

/-! ## The third layer -/

/-- The output column of a block, from the second hidden layer: the product with the 32 × 1 weights. -/
def k0_out (h2 : FVec Ideal S4096x32 .f32) (v32 : Vec Ideal S32x1 .f32) : FVec Ideal S4096x1 .f32 :=
  matmul dot_S4096x32_S32x1_S4096x1_1_0_0_1_n_n none
    (truncf .bf16 h2 Gen.bitsLt_bf16_f32)
    (truncf .bf16 (shapeCast S32x1 v32 Gen.shapeCasts_S32x1_S32x1) Gen.bitsLt_bf16_f32)
    (constant S4096x1 .f32 0x00000000#32)

/-- The output column at row p. -/
theorem k0_out_apply (h2 : FVec Ideal S4096x32 .f32) (v32 : Vec Ideal S32x1 .f32) (p : Fin 4096) :
    k0_out h2 v32 (ix2 p (0 : Fin 1)) = ∑ k : Fin 32, h2 (ix2 p k) * v32 (ix2 k (0 : Fin 1)) := by
  unfold k0_out
  rw [shapeCast_self]
  exact Cert.PlainMatmul.zero_acc_apply Gen.dot_S4096x32_S32x1_S4096x1_1_0_0_1_n_n_wf none _ _ p (0 : Fin 1)

/-- The body's product chain is the three layers composed. -/
theorem k0_pay2_eq (v0 : Vec Ideal S4096x128 .f32) (v3 : Vec Ideal S4096x32 .f32) (v6 : Vec Ideal S128x64 .f32)
    (v9 : Vec Ideal S32x64 .f32) (v15 : Vec Ideal S64 .f32) (v21 : Vec Ideal S64x32 .f32) (v26 : Vec Ideal S32 .f32)
    (v32 : Vec Ideal S32x1 .f32) :
    Gen.k0_pay2 (F := Ideal) v0 v3 v6 v9 v15 v21 v26 v32
      = k0_out (k0_hidden2 (k0_hidden1 v0 v3 v6 v9 v15) v21 v26) v32 := rfl

/-! ## The last bias, the flattening and the logistic function -/

/-- The body's last step at row p: the output column's entry plus the last bias, through the logistic function. -/
theorem k0_pay1_apply (x : FVec Ideal S4096x1 .f32) (v37 : Vec Ideal S1 .f32) (p : Fin 4096) :
    Gen.k0_pay1 (F := Ideal) x v37 (ix1 p) = Ideal.logistic (x (ix2 p (0 : Fin 1)) + v37 (ix1 (0 : Fin 1))) := by
  unfold Gen.k0_pay1
  show Ideal.logistic (shapeCast S4096 _ Gen.shapeCasts_S4096x1_S4096 (ix1 p)) = _
  refine congrArg Ideal.logistic ?_
  refine (Cert.LibLayout.shapeCast_a1_a_apply _ _ p).trans ?_
  rw [addf_apply]
  exact congrArg (x (ix2 p (0 : Fin 1)) + ·) (Cert.RowOps.row_repeated_apply v37 _ _ p (0 : Fin 1))

/-! ## The body at an edge -/

/-- The body's result at row p of a block is the split network on row p of the node-feature block and of the
    edge-feature block. -/
theorem pay0_apply (v0 : Vec Ideal S4096x128 .f32) (v3 : Vec Ideal S4096x32 .f32) (v6 : Vec Ideal S128x64 .f32) (v9 : Vec Ideal S32x64 .f32)
    (v15 : Vec Ideal S64 .f32) (v21 : Vec Ideal S64x32 .f32) (v26 : Vec Ideal S32 .f32) (v32 : Vec Ideal S32x1 .f32) (v37 : Vec Ideal S1 .f32) (p : Fin 4096) :
    Gen.k0_pay1 (F := Ideal) (Gen.k0_pay2 (F := Ideal) v0 v3 v6 v9 v15 v21 v26 v32) v37 (ix1 p)
      = Cert.EdgeScore.scoreSplit (fun k => v0 (ix2 p k)) (fun k => v3 (ix2 p k)) (fun k j => v6 (ix2 k j)) (fun k j => v9 (ix2 k j))
          (fun j => v15 (ix1 j)) (fun k1 k2 => v21 (ix2 k1 k2)) (fun j => v26 (ix1 j)) (fun k => v32 (ix2 k (0 : Fin 1))) (v37 (ix1 (0 : Fin 1))) := by
  rw [k0_pay1_apply, k0_pay2_eq, k0_out_apply]
  unfold Cert.EdgeScore.scoreSplit
  refine congrArg Ideal.logistic (congrArg (· + v37 (ix1 (0 : Fin 1))) ?_)
  refine Finset.sum_congr rfl fun k2 _ => congrArg (· * v32 (ix2 k2 (0 : Fin 1))) ?_
  rw [k0_hidden2_apply]
  refine congrArg (fun t => max (t + v26 (ix1 k2)) 0) ?_
  refine Finset.sum_congr rfl fun k1 _ => congrArg (· * v21 (ix2 k1 k2)) ?_
  exact k0_hidden1_apply v0 v3 v6 v9 v15 p k1

end Cert.KernelIdeal.Body

end
-- ==== Proof.Blocks0.lean ====
/-
  The first launch's output array, as one function of the arrays the launch reads.

  The first launch walks 244 grid points; point t reads rows 4096·t … 4096·t + 4095 of the packed source-and-target
  feature array and of the edge-feature array, the whole of each weight and bias array, and writes the scores of those
  4096 edges to rows 4096·t … of its output.  Since the blocks tile the output exactly, the output array after the
  launch is, row by row, the network's score of that row of the operands.
-/
import proofs.«160512_j82162724372845_2_alg».proof.Proof.Gen.KernelIdeal.Frame
import proofs.«160512_j82162724372845_2_alg».proof.Proof.Spec
import proofs.«160512_j82162724372845_2_alg».proof.Proof.Payload0
import Idealize.ShloMosaic.Lib.Pipeline.Value
import Idealize.ShloMosaic.Lib.ValueIdx

set_option maxRecDepth 16384

noncomputable section

namespace Cert.KernelIdeal.Blocks0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The score of row `e` of the launch's operand arrays as the launch finds them: the split network on row `e` of the
    packed source-and-target features and of the edge features, against the resident weights and biases. -/
def rowScore (c : Dev nD) (e : Fin 999424) : EReal :=
  Cert.EdgeScore.scoreSplit (fun k => V c main_v28 (ix2 e k)) (fun k => V c main_v29 (ix2 e k))
    (fun k j => V c main_v25 (ix2 k j)) (fun k j => V c main_v24 (ix2 k j)) (fun j => V c main_arg4 (ix1 j))
    (fun k1 k2 => V c main_v26 (ix2 k1 k2)) (fun j => V c main_arg6 (ix1 j)) (fun k => V c main_v27 (ix2 k (0 : Fin 1)))
    (V c main_arg8 (ix1 (0 : Fin 1)))

/-- The launch's whole output array: row by row, `rowScore`. -/
def outArr (c : Dev nD) : S999424.Idx → EReal := fun i => rowScore V c ⟨(i 0).val, (i 0).isLt⟩

/-- The printed index maps over the grid: the output block and the two streamed operands' blocks move together, one
    block of 4096 rows per grid point; the weights and biases sit at block 0 throughout. -/
theorem idx_facts : ∀ t : Fin cfg0.N, win0_9.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Row `p` of grid point `t`'s blocks is row `e = 4096·t + p` of the arrays: the body's score of that block row is
    `rowScore` at `e`. -/
theorem block_row (c : Dev nD) (t : Fin cfg0.N) (p : Fin 4096) (e : Fin 999424) (he : e.val = t.val * 4096 + p.val) :
    Cert.EdgeScore.scoreSplit (fun k => iblk0 V c 0 t (ix2 p k)) (fun k => iblk0 V c 1 t (ix2 p k))
        (fun k j => iblk0 V c 2 t (ix2 k j)) (fun k j => iblk0 V c 3 t (ix2 k j)) (fun j => iblk0 V c 4 t (ix1 j))
        (fun k1 k2 => iblk0 V c 5 t (ix2 k1 k2)) (fun j => iblk0 V c 6 t (ix1 j)) (fun k => iblk0 V c 7 t (ix2 k (0 : Fin 1)))
        (iblk0 V c 8 t (ix1 (0 : Fin 1)))
      = rowScore V c e := by
  obtain ⟨e9, e00, e01, e10, e11, e20, e21, e30, e31, e40, e50, e51, e60, e70, e71, e80⟩ := idx_facts t
  have h0 : ∀ k : Fin 128, iblk0 V c 0 t (ix2 p k) = V c main_v28 (ix2 e k) := fun k => by
    show V c main_v28 (((cfg0.win 0).blk t).view.emb (ix2 p k)) = V c main_v28 (ix2 e k)
    refine congrArg (V c main_v28) (funext fun a => Fin.ext ?_)
    match a with
    | ⟨0, _⟩ => show win0_0.index t (0 : Fin 2) * 4096 + 1 * p.val = e.val; omega
    | ⟨1, _⟩ => show win0_0.index t (1 : Fin 2) * 128 + 1 * k.val = k.val; omega
  have h1 : ∀ k : Fin 32, iblk0 V c 1 t (ix2 p k) = V c main_v29 (ix2 e k) := fun k => by
    show V c main_v29 (((cfg0.win 1).blk t).view.emb (ix2 p k)) = V c main_v29 (ix2 e k)
    refine congrArg (V c main_v29) (funext fun a => Fin.ext ?_)
    match a with
    | ⟨0, _⟩ => show win0_1.index t (0 : Fin 2) * 4096 + 1 * p.val = e.val; omega
    | ⟨1, _⟩ => show win0_1.index t (1 : Fin 2) * 32 + 1 * k.val = k.val; omega
  have h2 : ∀ (k : Fin 128) (j : Fin 64), iblk0 V c 2 t (ix2 k j) = V c main_v25 (ix2 k j) := fun k j => by
    show V c main_v25 (((cfg0.win 2).blk t).view.emb (ix2 k j)) = V c main_v25 (ix2 k j)
    refine congrArg (V c main_v25) (funext fun a => Fin.ext ?_)
    match a with
    | ⟨0, _⟩ => show win0_2.index t (0 : Fin 2) * 128 + 1 * k.val = k.val; omega
    | ⟨1, _⟩ => show win0_2.index t (1 : Fin 2) * 64 + 1 * j.val = j.val; omega
  have h3 : ∀ (k : Fin 32) (j : Fin 64), iblk0 V c 3 t (ix2 k j) = V c main_v24 (ix2 k j) := fun k j => by
    show V c main_v24 (((cfg0.win 3).blk t).view.emb (ix2 k j)) = V c main_v24 (ix2 k j)
    refine congrArg (V c main_v24) (funext fun a => Fin.ext ?_)
    match a with
    | ⟨0, _⟩ => show win0_3.index t (0 : Fin 2) * 32 + 1 * k.val = k.val; omega
    | ⟨1, _⟩ => show win0_3.index t (1 : Fin 2) * 64 + 1 * j.val = j.val; omega
  have h4 : ∀ j : Fin 64, iblk0 V c 4 t (ix1 j) = V c main_arg4 (ix1 j) := fun j => by
    show V c main_arg4 (((cfg0.win 4).blk t).view.emb (ix1 j)) = V c main_arg4 (ix1 j)
    refine congrArg (V c main_arg4) (funext fun a => Fin.ext ?_)
    match a with
    | ⟨0, _⟩ => show win0_4.index t (0 : Fin 1) * 64 + 1 * j.val = j.val; omega
  have h5 : ∀ (k : Fin 64) (j : Fin 32), iblk0 V c 5 t (ix2 k j) = V c main_v26 (ix2 k j) := fun k j => by
    show V c main_v26 (((cfg0.win 5).blk t).view.emb (ix2 k j)) = V c main_v26 (ix2 k j)
    refine congrArg (V c main_v26) (funext fun a => Fin.ext ?_)
    match a with
    | ⟨0, _⟩ => show win0_5.index t (0 : Fin 2) * 64 + 1 * k.val = k.val; omega
    | ⟨1, _⟩ => show win0_5.index t (1 : Fin 2) * 32 + 1 * j.val = j.val; omega
  have h6 : ∀ j : Fin 32, iblk0 V c 6 t (ix1 j) = V c main_arg6 (ix1 j) := fun j => by
    show V c main_arg6 (((cfg0.win 6).blk t).view.emb (ix1 j)) = V c main_arg6 (ix1 j)
    refine congrArg (V c main_arg6) (funext fun a => Fin.ext ?_)
    match a with
    | ⟨0, _⟩ => show win0_6.index t (0 : Fin 1) * 32 + 1 * j.val = j.val; omega
  have h7 : ∀ k : Fin 32, iblk0 V c 7 t (ix2 k (0 : Fin 1)) = V c main_v27 (ix2 k (0 : Fin 1)) := fun k => by
    show V c main_v27 (((cfg0.win 7).blk t).view.emb (ix2 k (0 : Fin 1))) = V c main_v27 (ix2 k (0 : Fin 1))
    refine congrArg (V c main_v27) (funext fun a => Fin.ext ?_)
    match a with
    | ⟨0, _⟩ => show win0_7.index t (0 : Fin 2) * 32 + 1 * k.val = k.val; omega
    | ⟨1, _⟩ => show win0_7.index t (1 : Fin 2) * 1 + 1 * 0 = 0; omega
  have h8 : iblk0 V c 8 t (ix1 (0 : Fin 1)) = V c main_arg8 (ix1 (0 : Fin 1)) := by
    show V c main_arg8 (((cfg0.win 8).blk t).view.emb (ix1 (0 : Fin 1))) = V c main_arg8 (ix1 (0 : Fin 1))
    refine congrArg (V c main_arg8) (funext fun a => Fin.ext ?_)
    match a with
    | ⟨0, _⟩ => show win0_8.index t (0 : Fin 1) * 1 + 1 * 0 = 0; omega
  unfold rowScore
  simp only [h0, h1, h2, h3, h4, h5, h6, h7, h8]

/-- What grid point `t` writes back is block `t` of `outArr`. -/
theorem flushed_eq (c : Dev nD) (t : Fin cfg0.N) :
    (dat0 V c).flushed 9 t = ((cfg0.win 9).blk t).view.read (Elt Ideal) (outArr V c) := by
  show (cfg0.win 9).cut (grid0.coords t) ((dat0 V c).after 9 t) = _
  rw [after0_9]
  unfold out0_9
  rw [View.canon_unit_zero hz1]
  simp only [View.ld_unit_zero (S := S4096x128) hz2, View.ld_unit_zero (S := S4096x32) hz2, View.ld_unit_zero (S := S128x64) hz2,
    View.ld_unit_zero (S := S32x64) hz2, View.ld_unit_zero (S := S64) hz1, View.ld_unit_zero (S := S64x32) hz2,
    View.ld_unit_zero (S := S32) hz1, View.ld_unit_zero (S := S32x1) hz2, View.ld_unit_zero (S := S1) hz1]
  funext j
  obtain ⟨p, rfl⟩ : ∃ p : Fin 4096, j = ix1 p := ⟨j 0, eq_ix1 j⟩
  show k0_pay1 (k0_pay2 (iblk0 V c 0 t) (iblk0 V c 1 t) (iblk0 V c 2 t) (iblk0 V c 3 t) (iblk0 V c 4 t) (iblk0 V c 5 t)
      (iblk0 V c 6 t) (iblk0 V c 7 t)) (iblk0 V c 8 t) (ix1 p)
    = outArr V c (((cfg0.win 9).blk t).view.emb (ix1 p))
  refine (pay0_apply (iblk0 V c 0 t) (iblk0 V c 1 t) (iblk0 V c 2 t) (iblk0 V c 3 t) (iblk0 V c 4 t) (iblk0 V c 5 t)
      (iblk0 V c 6 t) (iblk0 V c 7 t) (iblk0 V c 8 t) p).trans ?_
  refine block_row V c t p _ ?_
  obtain ⟨e9, -⟩ := idx_facts t
  show win0_9.index t (0 : Fin 1) * 4096 + 1 * p.val = t.val * 4096 + p.val
  omega

/-- An index of the output array is in point `t`'s block iff it lies in that block's range of rows. -/
theorem mem_blk (t : Fin cfg0.N) (i : S999424.Idx) :
    i ∈ ((cfg0.win 9).blk t).view.set ↔ ∀ a : Fin 1, win0_9.index t a * S4096.size a ≤ (i a).val ∧ (i a).val < win0_9.index t a * S4096.size a + S4096.size a := by
  show i ∈ ((View.whole main_v30).slice (win0_9.rect t)).set ↔ _
  rw [View.set_slice_whole, Rect.mem_set_unit]
  exact Iff.rfl

/-- Every row of the output array lies in some grid point's block: row `r` in the block of point `r / 4096`. -/
theorem cover (i : S999424.Idx) : ∃ t : Fin cfg0.N, (cfg0.win 9).flush t = true ∧ i ∈ ((cfg0.win 9).blk t).view.set := by
  have hi : (i 0).val < 999424 := (i 0).isLt
  have hN : cfg0.N = 244 := N_0
  let t : Fin cfg0.N := ⟨(i 0).val / 4096, by rw [hN]; omega⟩
  refine ⟨t, flush0_9 t, ?_⟩
  rw [mem_blk]
  intro a
  obtain ⟨e9, -⟩ := idx_facts t
  match a with
  | ⟨0, _⟩ =>
    show win0_9.index t (0 : Fin 1) * 4096 ≤ (i 0).val ∧ (i 0).val < win0_9.index t (0 : Fin 1) * 4096 + 4096
    have ht : t.val = (i 0).val / 4096 := rfl
    omega

/-- The launch's output array after the launch: `outArr` of the operand arrays as the launch found them. -/
theorem arr_final (c : Dev nD) : (dat0 V c).arrAt 9 cfg0.N = outArr V c :=
  (dat0 V c).arrAt_eq_of_cover 9 (outArr V c) (fun t _ => flushed_eq V c t) (cover)

end Cert.KernelIdeal.Blocks0

end
-- ==== Proof.Payload1.lean ====
/-
  The arithmetic of one block of 576 edges, read at an edge.

  The body of the kernel takes a block's rows of node features (128 entries: source then target), its rows of edge
  features (32 entries) and the network's parameters, and computes every row's score: a first layer whose product is
  taken in two parts (the 128 node entries, the 32 edge entries) and summed, a bias and a relu; a second layer, bias
  and relu; a third layer with one output, its bias, and the logistic function.  On the extended reals a change of
  format is the identity, a product onto the zero array is a plain sum of products, and a bias kept as a row and
  repeated over the rows reads its entry for the column; so at row p the body's result is the split network of the
  specification on row p of the two feature blocks.

  The reading goes layer by layer: each layer is named as a function of the arrays it reads, read at an entry, and
  the body is the composition of the three layers followed by the last bias and the logistic function.
-/
import proofs.«160512_j82162724372845_2_alg».proof.Proof.Gen.KernelIdeal.Skeleton
import proofs.«160512_j82162724372845_2_alg».proof.Proof.Spec
import proofs.«160512_j82162724372845_2_alg».proof.Proof.LibPlainMatmul
import proofs.«160512_j82162724372845_2_alg».proof.Proof.LibRowOps
import proofs.«160512_j82162724372845_2_alg».proof.Proof.LibLayout

noncomputable section

open scoped BigOperators

namespace Cert.KernelIdeal.Body

open Cert.KernelIdeal Cert.KernelIdeal.Gen Idealize.ShloMosaic Idealize.ShloMosaic.TcCoe Idealize.ShloMosaic.ValueIdx

/-- A product of two arrays, each cast to its own shape and narrowed, onto the zero array: at (p, q) the sum over k
    of left (p, k) · right (k, q).  The cast to the same shape and the narrowing change nothing on the extended
    reals. -/
theorem k1_narrowed_product_apply {a n b : ℕ}
    (wf : DotDims.WF ⟨2, ![a, n]⟩ ⟨2, ![n, b]⟩ ⟨2, ![a, b]⟩ [1] [0] [0] [1] [] [])
    (L : FVec Ideal ⟨2, ![a, n]⟩ .f32) (R : FVec Ideal ⟨2, ![n, b]⟩ .f32)
    (hL : (⟨2, ![a, n]⟩ : Shape).ShapeCasts ⟨2, ![a, n]⟩) (hR : (⟨2, ![n, b]⟩ : Shape).ShapeCasts ⟨2, ![n, b]⟩)
    (hb : FTy.bits .bf16 < FTy.bits .f32) (p : Fin a) (q : Fin b) :
    matmul (F := Ideal) (Cert.PlainMatmul.dims wf) none
        (truncf .bf16 (shapeCast ⟨2, ![a, n]⟩ L hL) hb) (truncf .bf16 (shapeCast ⟨2, ![n, b]⟩ R hR) hb)
        (constant ⟨2, ![a, b]⟩ .f32 0x00000000#32) (ix2 p q)
      = ∑ k : Fin n, L (ix2 p k) * R (ix2 k q) := by
  rw [shapeCast_self, shapeCast_self]
  exact Cert.PlainMatmul.zero_acc_apply wf none _ _ p q

/-! ## The first layer -/

/-- The first hidden layer of a block: the node features against the first 128 rows of weights plus the edge features
    against the last 32, plus the bias, then relu. -/
def k1_hidden1 (v0 : Vec Ideal S576x128 .f32) (v3 : Vec Ideal S576x32 .f32) (v6 : Vec Ideal S128x64 .f32)
    (v9 : Vec Ideal S32x64 .f32) (v15 : Vec Ideal S64 .f32) : FVec Ideal S576x64 .f32 :=
  maximumf
    (addf
      (addf
        (matmul dot_S576x128_S128x64_S576x64_1_0_0_1_n_n none
          (truncf .bf16 (shapeCast S576x128 v0 Gen.shapeCasts_S576x128_S576x128) Gen.bitsLt_bf16_f32)
          (truncf .bf16 (shapeCast S128x64 v6 Gen.shapeCasts_S128x64_S128x64) Gen.bitsLt_bf16_f32)
          (constant S576x64 .f32 0x00000000#32))
        (matmul dot_S576x32_S32x64_S576x64_1_0_0_1_n_n none
          (truncf .bf16 (shapeCast S576x32 v3 Gen.shapeCasts_S576x32_S576x32) Gen.bitsLt_bf16_f32)
          (truncf .bf16 (shapeCast S32x64 v9 Gen.shapeCasts_S32x64_S32x64) Gen.bitsLt_bf16_f32)
          (constant S576x64 .f32 0x00000000#32)))
      (broadcastTo S576x64 (shapeCast S1x64 v15 Gen.shapeCasts_S64_S1x64) Gen.broadcasts_S1x64_S576x64))
    (broadcast S576x64 (Scalar.ofBits .f32 0x00000000#32))

/-- The first hidden layer at row p, unit j. -/
theorem k1_hidden1_apply (v0 : Vec Ideal S576x128 .f32) (v3 : Vec Ideal S576x32 .f32) (v6 : Vec Ideal S128x64 .f32)
    (v9 : Vec Ideal S32x64 .f32) (v15 : Vec Ideal S64 .f32) (p : Fin 576) (j : Fin 64) :
    k1_hidden1 v0 v3 v6 v9 v15 (ix2 p j)
      = max (((∑ k : Fin 128, v0 (ix2 p k) * v6 (ix2 k j)) + ∑ k : Fin 32, v3 (ix2 p k) * v9 (ix2 k j)) + v15 (ix1 j)) 0 := by
  unfold k1_hidden1
  rw [maximumf_apply, addf_apply, addf_apply, broadcast_apply]
  refine congrArg₂ max (congrArg₂ (· + ·) (congrArg₂ (· + ·) ?_ ?_) ?_) ?_
  · exact k1_narrowed_product_apply Gen.dot_S576x128_S128x64_S576x64_1_0_0_1_n_n_wf v0 v6 _ _ _ p j
  · exact k1_narrowed_product_apply Gen.dot_S576x32_S32x64_S576x64_1_0_0_1_n_n_wf v3 v9 _ _ _ p j
  · exact Cert.RowOps.row_repeated_apply v15 _ _ p j
  · exact Ideal.ofBits_zero_f32

/-! ## The second layer -/

/-- The second hidden layer of a block, from the first: the product with the 64 × 32 weights, the bias, relu. -/
def k1_hidden2 (h1 : FVec Ideal S576x64 .f32) (v21 : Vec Ideal S64x32 .f32) (v26 : Vec Ideal S32 .f32) :
    FVec Ideal S576x32 .f32 :=
  maximumf
    (addf
      (matmul dot_S576x64_S64x32_S576x32_1_0_0_1_n_n none
        (truncf .bf16 h1 Gen.bitsLt_bf16_f32)
        (truncf .bf16 (shapeCast S64x32 v21 Gen.shapeCasts_S64x32_S64x32) Gen.bitsLt_bf16_f32)
        (constant S576x32 .f32 0x00000000#32))
      (broadcastTo S576x32 (shapeCast S1x32 v26 Gen.shapeCasts_S32_S1x32) Gen.broadcasts_S1x32_S576x32))
    (broadcast S576x32 (Scalar.ofBits .f32 0x00000000#32))

/-- The second hidden layer at row p, unit j. -/
theorem k1_hidden2_apply (h1 : FVec Ideal S576x64 .f32) (v21 : Vec Ideal S64x32 .f32) (v26 : Vec Ideal S32 .f32)
    (p : Fin 576) (j : Fin 32) :
    k1_hidden2 h1 v21 v26 (ix2 p j) = max ((∑ k : Fin 64, h1 (ix2 p k) * v21 (ix2 k j)) + v26 (ix1 j)) 0 := by
  unfold k1_hidden2
  rw [maximumf_apply, addf_apply, broadcast_apply, shapeCast_self]
  refine congrArg₂ max (congrArg₂ (· + ·) ?_ ?_) ?_
  · exact Cert.PlainMatmul.zero_acc_apply Gen.dot_S576x64_S64x32_S576x32_1_0_0_1_n_n_wf none _ _ p j
  · exact Cert.RowOps.row_repeated_apply v26 _ _ p j
  · exact Ideal.ofBits_zero_f32

/-! ## The third layer -/

/-- The output column of a block, from the second hidden layer: the product with the 32 × 1 weights. -/
def k1_out (h2 : FVec Ideal S576x32 .f32) (v32 : Vec Ideal S32x1 .f32) : FVec Ideal S576x1 .f32 :=
  matmul dot_S576x32_S32x1_S576x1_1_0_0_1_n_n none
    (truncf .bf16 h2 Gen.bitsLt_bf16_f32)
    (truncf .bf16 (shapeCast S32x1 v32 Gen.shapeCasts_S32x1_S32x1) Gen.bitsLt_bf16_f32)
    (constant S576x1 .f32 0x00000000#32)

/-- The output column at row p. -/
theorem k1_out_apply (h2 : FVec Ideal S576x32 .f32) (v32 : Vec Ideal S32x1 .f32) (p : Fin 576) :
    k1_out h2 v32 (ix2 p (0 : Fin 1)) = ∑ k : Fin 32, h2 (ix2 p k) * v32 (ix2 k (0 : Fin 1)) := by
  unfold k1_out
  rw [shapeCast_self]
  exact Cert.PlainMatmul.zero_acc_apply Gen.dot_S576x32_S32x1_S576x1_1_0_0_1_n_n_wf none _ _ p (0 : Fin 1)

/-- The body's product chain is the three layers composed. -/
theorem k1_pay2_eq (v0 : Vec Ideal S576x128 .f32) (v3 : Vec Ideal S576x32 .f32) (v6 : Vec Ideal S128x64 .f32)
    (v9 : Vec Ideal S32x64 .f32) (v15 : Vec Ideal S64 .f32) (v21 : Vec Ideal S64x32 .f32) (v26 : Vec Ideal S32 .f32)
    (v32 : Vec Ideal S32x1 .f32) :
    Gen.k1_pay2 (F := Ideal) v0 v3 v6 v9 v15 v21 v26 v32
      = k1_out (k1_hidden2 (k1_hidden1 v0 v3 v6 v9 v15) v21 v26) v32 := rfl

/-! ## The last bias, the flattening and the logistic function -/

/-- The body's last step at row p: the output column's entry plus the last bias, through the logistic function. -/
theorem k1_pay1_apply (x : FVec Ideal S576x1 .f32) (v37 : Vec Ideal S1 .f32) (p : Fin 576) :
    Gen.k1_pay1 (F := Ideal) x v37 (ix1 p) = Ideal.logistic (x (ix2 p (0 : Fin 1)) + v37 (ix1 (0 : Fin 1))) := by
  unfold Gen.k1_pay1
  show Ideal.logistic (shapeCast S576 _ Gen.shapeCasts_S576x1_S576 (ix1 p)) = _
  refine congrArg Ideal.logistic ?_
  refine (Cert.LibLayout.shapeCast_a1_a_apply _ _ p).trans ?_
  rw [addf_apply]
  exact congrArg (x (ix2 p (0 : Fin 1)) + ·) (Cert.RowOps.row_repeated_apply v37 _ _ p (0 : Fin 1))

/-! ## The body at an edge -/

/-- The body's result at row p of a block is the split network on row p of the node-feature block and of the
    edge-feature block. -/
theorem pay1_apply (v0 : Vec Ideal S576x128 .f32) (v3 : Vec Ideal S576x32 .f32) (v6 : Vec Ideal S128x64 .f32) (v9 : Vec Ideal S32x64 .f32)
    (v15 : Vec Ideal S64 .f32) (v21 : Vec Ideal S64x32 .f32) (v26 : Vec Ideal S32 .f32) (v32 : Vec Ideal S32x1 .f32) (v37 : Vec Ideal S1 .f32) (p : Fin 576) :
    Gen.k1_pay1 (F := Ideal) (Gen.k1_pay2 (F := Ideal) v0 v3 v6 v9 v15 v21 v26 v32) v37 (ix1 p)
      = Cert.EdgeScore.scoreSplit (fun k => v0 (ix2 p k)) (fun k => v3 (ix2 p k)) (fun k j => v6 (ix2 k j)) (fun k j => v9 (ix2 k j))
          (fun j => v15 (ix1 j)) (fun k1 k2 => v21 (ix2 k1 k2)) (fun j => v26 (ix1 j)) (fun k => v32 (ix2 k (0 : Fin 1))) (v37 (ix1 (0 : Fin 1))) := by
  rw [k1_pay1_apply, k1_pay2_eq, k1_out_apply]
  unfold Cert.EdgeScore.scoreSplit
  refine congrArg Ideal.logistic (congrArg (· + v37 (ix1 (0 : Fin 1))) ?_)
  refine Finset.sum_congr rfl fun k2 _ => congrArg (· * v32 (ix2 k2 (0 : Fin 1))) ?_
  rw [k1_hidden2_apply]
  refine congrArg (fun t => max (t + v26 (ix1 k2)) 0) ?_
  refine Finset.sum_congr rfl fun k1 _ => congrArg (· * v21 (ix2 k1 k2)) ?_
  exact k1_hidden1_apply v0 v3 v6 v9 v15 p k1

end Cert.KernelIdeal.Body

end
-- ==== Proof.Blocks1.lean ====
/-
  The second launch's output array, as one function of the arrays the launch reads.

  The second launch has a single grid point: it reads the last 576 rows of the packed source-and-target features and
  of the edge features (cut out beforehand by two host slices), the whole of each weight and bias array, and writes
  the 576 scores.  Its output array after the launch is, row by row, the network's score of that row of the operands.
-/
import proofs.«160512_j82162724372845_2_alg».proof.Proof.Gen.KernelIdeal.Frame
import proofs.«160512_j82162724372845_2_alg».proof.Proof.Spec
import proofs.«160512_j82162724372845_2_alg».proof.Proof.Payload1
import Idealize.ShloMosaic.Lib.Pipeline.Value
import Idealize.ShloMosaic.Lib.ValueIdx

set_option maxRecDepth 16384

noncomputable section

namespace Cert.KernelIdeal.Blocks1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The score of row `e` of the launch's operand arrays as the launch finds them: the split network on row `e` of the
    packed source-and-target features and of the edge features, against the resident weights and biases. -/
def rowScore (c : Dev nD) (e : Fin 576) : EReal :=
  Cert.EdgeScore.scoreSplit (fun k => V c main_v31 (ix2 e k)) (fun k => V c main_v32 (ix2 e k))
    (fun k j => V c main_v25 (ix2 k j)) (fun k j => V c main_v24 (ix2 k j)) (fun j => V c main_arg4 (ix1 j))
    (fun k1 k2 => V c main_v26 (ix2 k1 k2)) (fun j => V c main_arg6 (ix1 j)) (fun k => V c main_v27 (ix2 k (0 : Fin 1)))
    (V c main_arg8 (ix1 (0 : Fin 1)))

/-- The launch's whole output array: row by row, `rowScore`. -/
def outArr (c : Dev nD) : S576.Idx → EReal := fun i => rowScore V c ⟨(i 0).val, (i 0).isLt⟩

/-- The printed index maps over the grid: the output block and the two streamed operands' blocks move together, one
    block of 576 rows per grid point; the weights and biases sit at block 0 throughout. -/
theorem idx_facts : ∀ t : Fin cfg1.N, win1_9.index t (0 : Fin 1) = t.val
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- Row `p` of grid point `t`'s blocks is row `e = 576·t + p` of the arrays: the body's score of that block row is
    `rowScore` at `e`. -/
theorem block_row (c : Dev nD) (t : Fin cfg1.N) (p : Fin 576) (e : Fin 576) (he : e.val = t.val * 576 + p.val) :
    Cert.EdgeScore.scoreSplit (fun k => iblk1 V c 0 t (ix2 p k)) (fun k => iblk1 V c 1 t (ix2 p k))
        (fun k j => iblk1 V c 2 t (ix2 k j)) (fun k j => iblk1 V c 3 t (ix2 k j)) (fun j => iblk1 V c 4 t (ix1 j))
        (fun k1 k2 => iblk1 V c 5 t (ix2 k1 k2)) (fun j => iblk1 V c 6 t (ix1 j)) (fun k => iblk1 V c 7 t (ix2 k (0 : Fin 1)))
        (iblk1 V c 8 t (ix1 (0 : Fin 1)))
      = rowScore V c e := by
  obtain ⟨e9, e00, e01, e10, e11, e20, e21, e30, e31, e40, e50, e51, e60, e70, e71, e80⟩ := idx_facts t
  have h0 : ∀ k : Fin 128, iblk1 V c 0 t (ix2 p k) = V c main_v31 (ix2 e k) := fun k => by
    show V c main_v31 (((cfg1.win 0).blk t).view.emb (ix2 p k)) = V c main_v31 (ix2 e k)
    refine congrArg (V c main_v31) (funext fun a => Fin.ext ?_)
    match a with
    | ⟨0, _⟩ => show win1_0.index t (0 : Fin 2) * 576 + 1 * p.val = e.val; omega
    | ⟨1, _⟩ => show win1_0.index t (1 : Fin 2) * 128 + 1 * k.val = k.val; omega
  have h1 : ∀ k : Fin 32, iblk1 V c 1 t (ix2 p k) = V c main_v32 (ix2 e k) := fun k => by
    show V c main_v32 (((cfg1.win 1).blk t).view.emb (ix2 p k)) = V c main_v32 (ix2 e k)
    refine congrArg (V c main_v32) (funext fun a => Fin.ext ?_)
    match a with
    | ⟨0, _⟩ => show win1_1.index t (0 : Fin 2) * 576 + 1 * p.val = e.val; omega
    | ⟨1, _⟩ => show win1_1.index t (1 : Fin 2) * 32 + 1 * k.val = k.val; omega
  have h2 : ∀ (k : Fin 128) (j : Fin 64), iblk1 V c 2 t (ix2 k j) = V c main_v25 (ix2 k j) := fun k j => by
    show V c main_v25 (((cfg1.win 2).blk t).view.emb (ix2 k j)) = V c main_v25 (ix2 k j)
    refine congrArg (V c main_v25) (funext fun a => Fin.ext ?_)
    match a with
    | ⟨0, _⟩ => show win1_2.index t (0 : Fin 2) * 128 + 1 * k.val = k.val; omega
    | ⟨1, _⟩ => show win1_2.index t (1 : Fin 2) * 64 + 1 * j.val = j.val; omega
  have h3 : ∀ (k : Fin 32) (j : Fin 64), iblk1 V c 3 t (ix2 k j) = V c main_v24 (ix2 k j) := fun k j => by
    show V c main_v24 (((cfg1.win 3).blk t).view.emb (ix2 k j)) = V c main_v24 (ix2 k j)
    refine congrArg (V c main_v24) (funext fun a => Fin.ext ?_)
    match a with
    | ⟨0, _⟩ => show win1_3.index t (0 : Fin 2) * 32 + 1 * k.val = k.val; omega
    | ⟨1, _⟩ => show win1_3.index t (1 : Fin 2) * 64 + 1 * j.val = j.val; omega
  have h4 : ∀ j : Fin 64, iblk1 V c 4 t (ix1 j) = V c main_arg4 (ix1 j) := fun j => by
    show V c main_arg4 (((cfg1.win 4).blk t).view.emb (ix1 j)) = V c main_arg4 (ix1 j)
    refine congrArg (V c main_arg4) (funext fun a => Fin.ext ?_)
    match a with
    | ⟨0, _⟩ => show win1_4.index t (0 : Fin 1) * 64 + 1 * j.val = j.val; omega
  have h5 : ∀ (k : Fin 64) (j : Fin 32), iblk1 V c 5 t (ix2 k j) = V c main_v26 (ix2 k j) := fun k j => by
    show V c main_v26 (((cfg1.win 5).blk t).view.emb (ix2 k j)) = V c main_v26 (ix2 k j)
    refine congrArg (V c main_v26) (funext fun a => Fin.ext ?_)
    match a with
    | ⟨0, _⟩ => show win1_5.index t (0 : Fin 2) * 64 + 1 * k.val = k.val; omega
    | ⟨1, _⟩ => show win1_5.index t (1 : Fin 2) * 32 + 1 * j.val = j.val; omega
  have h6 : ∀ j : Fin 32, iblk1 V c 6 t (ix1 j) = V c main_arg6 (ix1 j) := fun j => by
    show V c main_arg6 (((cfg1.win 6).blk t).view.emb (ix1 j)) = V c main_arg6 (ix1 j)
    refine congrArg (V c main_arg6) (funext fun a => Fin.ext ?_)
    match a with
    | ⟨0, _⟩ => show win1_6.index t (0 : Fin 1) * 32 + 1 * j.val = j.val; omega
  have h7 : ∀ k : Fin 32, iblk1 V c 7 t (ix2 k (0 : Fin 1)) = V c main_v27 (ix2 k (0 : Fin 1)) := fun k => by
    show V c main_v27 (((cfg1.win 7).blk t).view.emb (ix2 k (0 : Fin 1))) = V c main_v27 (ix2 k (0 : Fin 1))
    refine congrArg (V c main_v27) (funext fun a => Fin.ext ?_)
    match a with
    | ⟨0, _⟩ => show win1_7.index t (0 : Fin 2) * 32 + 1 * k.val = k.val; omega
    | ⟨1, _⟩ => show win1_7.index t (1 : Fin 2) * 1 + 1 * 0 = 0; omega
  have h8 : iblk1 V c 8 t (ix1 (0 : Fin 1)) = V c main_arg8 (ix1 (0 : Fin 1)) := by
    show V c main_arg8 (((cfg1.win 8).blk t).view.emb (ix1 (0 : Fin 1))) = V c main_arg8 (ix1 (0 : Fin 1))
    refine congrArg (V c main_arg8) (funext fun a => Fin.ext ?_)
    match a with
    | ⟨0, _⟩ => show win1_8.index t (0 : Fin 1) * 1 + 1 * 0 = 0; omega
  unfold rowScore
  simp only [h0, h1, h2, h3, h4, h5, h6, h7, h8]

/-- What grid point `t` writes back is block `t` of `outArr`. -/
theorem flushed_eq (c : Dev nD) (t : Fin cfg1.N) :
    (dat1 V c).flushed 9 t = ((cfg1.win 9).blk t).view.read (Elt Ideal) (outArr V c) := by
  show (cfg1.win 9).cut (grid1.coords t) ((dat1 V c).after 9 t) = _
  rw [after1_9]
  unfold out1_9
  rw [View.canon_unit_zero hz1]
  simp only [View.ld_unit_zero (S := S576x128) hz2, View.ld_unit_zero (S := S576x32) hz2, View.ld_unit_zero (S := S128x64) hz2,
    View.ld_unit_zero (S := S32x64) hz2, View.ld_unit_zero (S := S64) hz1, View.ld_unit_zero (S := S64x32) hz2,
    View.ld_unit_zero (S := S32) hz1, View.ld_unit_zero (S := S32x1) hz2, View.ld_unit_zero (S := S1) hz1]
  funext j
  obtain ⟨p, rfl⟩ : ∃ p : Fin 576, j = ix1 p := ⟨j 0, eq_ix1 j⟩
  show k1_pay1 (k1_pay2 (iblk1 V c 0 t) (iblk1 V c 1 t) (iblk1 V c 2 t) (iblk1 V c 3 t) (iblk1 V c 4 t) (iblk1 V c 5 t)
      (iblk1 V c 6 t) (iblk1 V c 7 t)) (iblk1 V c 8 t) (ix1 p)
    = outArr V c (((cfg1.win 9).blk t).view.emb (ix1 p))
  refine (pay1_apply (iblk1 V c 0 t) (iblk1 V c 1 t) (iblk1 V c 2 t) (iblk1 V c 3 t) (iblk1 V c 4 t) (iblk1 V c 5 t)
      (iblk1 V c 6 t) (iblk1 V c 7 t) (iblk1 V c 8 t) p).trans ?_
  refine block_row V c t p _ ?_
  obtain ⟨e9, -⟩ := idx_facts t
  show win1_9.index t (0 : Fin 1) * 576 + 1 * p.val = t.val * 576 + p.val
  omega

/-- An index of the output array is in point `t`'s block iff it lies in that block's range of rows. -/
theorem mem_blk (t : Fin cfg1.N) (i : S576.Idx) :
    i ∈ ((cfg1.win 9).blk t).view.set ↔ ∀ a : Fin 1, win1_9.index t a * S576.size a ≤ (i a).val ∧ (i a).val < win1_9.index t a * S576.size a + S576.size a := by
  show i ∈ ((View.whole main_v33).slice (win1_9.rect t)).set ↔ _
  rw [View.set_slice_whole, Rect.mem_set_unit]
  exact Iff.rfl

/-- Every row of the output array lies in some grid point's block: row `r` in the block of point `r / 576`. -/
theorem cover (i : S576.Idx) : ∃ t : Fin cfg1.N, (cfg1.win 9).flush t = true ∧ i ∈ ((cfg1.win 9).blk t).view.set := by
  have hi : (i 0).val < 576 := (i 0).isLt
  have hN : cfg1.N = 1 := N_1
  let t : Fin cfg1.N := ⟨(i 0).val / 576, by rw [hN]; omega⟩
  refine ⟨t, flush1_9 t, ?_⟩
  rw [mem_blk]
  intro a
  obtain ⟨e9, -⟩ := idx_facts t
  match a with
  | ⟨0, _⟩ =>
    show win1_9.index t (0 : Fin 1) * 576 ≤ (i 0).val ∧ (i 0).val < win1_9.index t (0 : Fin 1) * 576 + 576
    have ht : t.val = (i 0).val / 576 := rfl
    omega

/-- The launch's output array after the launch: `outArr` of the operand arrays as the launch found them. -/
theorem arr_final (c : Dev nD) : (dat1 V c).arrAt 9 cfg1.N = outArr V c :=
  (dat1 V c).arrAt_eq_of_cover 9 (outArr V c) (fun t _ => flushed_eq V c t) (cover)

end Cert.KernelIdeal.Blocks1

end
-- ==== Proof.KernelValue.lean ====
/-
  The kernel program's two results, as functions of the launch memory.

  The first launch scores edges 0 … 999423 in 244 blocks of 4096, the second the remaining 576; the host joins the two
  score vectors and compares with one half.  Row e of the first launch's operands is row e of the packed
  source-and-target features and of the edge features; row r of the second launch's operands is row 999424 + r.  Its
  first-layer operands are the transposed pieces of the weight matrix, so that its two partial sums (over the first 128
  and the last 32 entries of the edge's feature row) add up to the single sum over all 160 entries.  Hence the joined
  vector is, edge by edge, the network's score of that edge's feature row.
-/
import proofs.«160512_j82162724372845_2_alg».proof.Proof.HostStages
import proofs.«160512_j82162724372845_2_alg».proof.Proof.StageReads
import proofs.«160512_j82162724372845_2_alg».proof.Proof.Blocks0
import proofs.«160512_j82162724372845_2_alg».proof.Proof.Blocks1
import proofs.«160512_j82162724372845_2_alg».proof.Proof.LibTranspose

set_option maxRecDepth 16384

noncomputable section

namespace Cert.KernelIdeal.Scores

open Cert.KernelIdeal Cert.KernelIdeal.Gen Cert.KernelIdeal.Stages Cert.EdgeScore
open Idealize.ShloMosaic Idealize.ShloMosaic.TcCoe Idealize.ShloMosaic.ValueIdx Idealize.SL.Sem

variable (m : (ℓ : Loc nD τ sig) → Buf (Elt Ideal) ℓ) (ρ : Dev nD → PrngReg)

/-- The network's score of edge `e`, from the launch memory. -/
def edgeScore (c : Dev nD) (e : Fin 1000000) : EReal :=
  score (row (srcRows m c) (tgtRows m c) (m ((c : Thread nD τ).loc main_arg2)) e) (fun j k => (m ((c : Thread nD τ).loc main_arg3)) (ix2 j k))
    (fun j => (m ((c : Thread nD τ).loc main_arg4)) (ix1 j)) (fun j k => (m ((c : Thread nD τ).loc main_arg5)) (ix2 j k)) (fun j => (m ((c : Thread nD τ).loc main_arg6)) (ix1 j))
    (fun k => (m ((c : Thread nD τ).loc main_arg7)) (ix2 (0 : Fin 1) k)) ((m ((c : Thread nD τ).loc main_arg8)) (ix1 (0 : Fin 1)))

/-- Every edge's score, from the launch memory. -/
def result (c : Dev nD) : S1000000.Idx → EReal :=
  scores (srcRows m c) (tgtRows m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The keep mask: the score is at least one half. -/
def mask (c : Dev nD) : S1000000.Idx → BitVec 1 :=
  cmpf .oge (result m c) (broadcastInDim S1000000 ![] bcast_S_S1000000 (constant (F := Ideal) S_ .f32 0x3F000000#32))

theorem result_apply (c : Dev nD) (e : Fin 1000000) : result m c (ix1 e) = edgeScore m c e := rfl

/-- The resident operands of either launch, read at an entry, are the transposed pieces of the parameters. -/
theorem w25 (c : Dev nD) (k : Fin 128) (j : Fin 64) : W1 m ρ c (Proc.devRef .tc main_v25) (ix2 k j) = (m ((c : Thread nD τ).loc main_arg3)) (ix2 j (lo k)) := by
  rw [W1_v25]; exact Stages.first_weights _ _ _ _ _ k j
theorem w24 (c : Dev nD) (k : Fin 32) (j : Fin 64) : W1 m ρ c (Proc.devRef .tc main_v24) (ix2 k j) = (m ((c : Thread nD τ).loc main_arg3)) (ix2 j (hi k)) := by
  rw [W1_v24]; exact Stages.edge_weights _ _ _ k j
theorem w26 (c : Dev nD) (k1 : Fin 64) (k2 : Fin 32) : W1 m ρ c (Proc.devRef .tc main_v26) (ix2 k1 k2) = (m ((c : Thread nD τ).loc main_arg5)) (ix2 k2 k1) := by
  rw [W1_v26]; exact Cert.Transpose.swapped_apply _ _ k2 k1
theorem w27 (c : Dev nD) (k : Fin 32) : W1 m ρ c (Proc.devRef .tc main_v27) (ix2 k (0 : Fin 1)) = (m ((c : Thread nD τ).loc main_arg7)) (ix2 (0 : Fin 1) k) := by
  rw [W1_v27]; exact Cert.Transpose.swapped_apply _ _ (0 : Fin 1) k

/-- Row `e` of the first launch's operands scores edge `e`. -/
theorem main_row (c : Dev nD) (e : Fin 999424) (e' : Fin 1000000) (he : e'.val = e.val) :
    Blocks0.rowScore (V1 m ρ) c e = edgeScore m c e' := by
  obtain ⟨v, hv⟩ := e'
  have hve : v = e.val := he
  subst hve
  have a0 : ∀ k : Fin 128, V1 m ρ c main_v28 (ix2 e k) = row (srcRows m c) (tgtRows m c) (m ((c : Thread nD τ).loc main_arg2)) ⟨e.val, hv⟩ (lo k) := fun k => by
    show W1 m ρ c (Proc.devRef .tc main_v28) (ix2 e k) = _
    rw [W1_v28]; exact Stages.packed_main _ _ _ _ _ e k
  have a1 : ∀ k : Fin 32, V1 m ρ c main_v29 (ix2 e k) = row (srcRows m c) (tgtRows m c) (m ((c : Thread nD τ).loc main_arg2)) ⟨e.val, hv⟩ (hi k) := fun k => by
    show W1 m ρ c (Proc.devRef .tc main_v29) (ix2 e k) = _
    rw [W1_v29]; exact Stages.edge_main _ _ _ _ e k
  have a2 : ∀ (k : Fin 128) (j : Fin 64), V1 m ρ c main_v25 (ix2 k j) = (m ((c : Thread nD τ).loc main_arg3)) (ix2 j (lo k)) := fun k j => w25 m ρ c k j
  have a3 : ∀ (k : Fin 32) (j : Fin 64), V1 m ρ c main_v24 (ix2 k j) = (m ((c : Thread nD τ).loc main_arg3)) (ix2 j (hi k)) := fun k j => w24 m ρ c k j
  have a4 : ∀ j : Fin 64, V1 m ρ c main_arg4 (ix1 j) = (m ((c : Thread nD τ).loc main_arg4)) (ix1 j) := fun j => congrFun (W1_arg4 m ρ c) _
  have a5 : ∀ (k1 : Fin 64) (k2 : Fin 32), V1 m ρ c main_v26 (ix2 k1 k2) = (m ((c : Thread nD τ).loc main_arg5)) (ix2 k2 k1) := fun k1 k2 => w26 m ρ c k1 k2
  have a6 : ∀ j : Fin 32, V1 m ρ c main_arg6 (ix1 j) = (m ((c : Thread nD τ).loc main_arg6)) (ix1 j) := fun j => congrFun (W1_arg6 m ρ c) _
  have a7 : ∀ k : Fin 32, V1 m ρ c main_v27 (ix2 k (0 : Fin 1)) = (m ((c : Thread nD τ).loc main_arg7)) (ix2 (0 : Fin 1) k) := fun k => w27 m ρ c k
  have a8 : V1 m ρ c main_arg8 (ix1 (0 : Fin 1)) = (m ((c : Thread nD τ).loc main_arg8)) (ix1 (0 : Fin 1)) := congrFun (W1_arg8 m ρ c) _
  unfold Blocks0.rowScore edgeScore
  simp only [a0, a1, a2, a3, a4, a5, a6, a7, a8]
  exact scoreSplit_eq _ (fun j k => (m ((c : Thread nD τ).loc main_arg3)) (ix2 j k)) _ (fun j k => (m ((c : Thread nD τ).loc main_arg5)) (ix2 j k)) _ _ _

/-- Row `r` of the second launch's operands scores edge `999424 + r`. -/
theorem tail_row (c : Dev nD) (e : Fin 576) (e' : Fin 1000000) (he : e'.val = 999424 + e.val) :
    Blocks1.rowScore (V3 m ρ) c e = edgeScore m c e' := by
  obtain ⟨v, hv⟩ := e'
  have hve : v = 999424 + e.val := he
  subst hve
  have a0 : ∀ k : Fin 128, V3 m ρ c main_v31 (ix2 e k) = row (srcRows m c) (tgtRows m c) (m ((c : Thread nD τ).loc main_arg2)) ⟨999424 + e.val, hv⟩ (lo k) := fun k => by
    show W3 m ρ c (Proc.devRef .tc main_v31) (ix2 e k) = _
    rw [W3_v31]; exact Stages.packed_tail _ _ _ _ _ e k
  have a1 : ∀ k : Fin 32, V3 m ρ c main_v32 (ix2 e k) = row (srcRows m c) (tgtRows m c) (m ((c : Thread nD τ).loc main_arg2)) ⟨999424 + e.val, hv⟩ (hi k) := fun k => by
    show W3 m ρ c (Proc.devRef .tc main_v32) (ix2 e k) = _
    rw [W3_v32]; exact Stages.edge_tail _ _ _ _ e k
  have a2 : ∀ (k : Fin 128) (j : Fin 64), V3 m ρ c main_v25 (ix2 k j) = (m ((c : Thread nD τ).loc main_arg3)) (ix2 j (lo k)) := fun k j => by
    show W3 m ρ c (Proc.devRef .tc main_v25) (ix2 k j) = _
    rw [W3_v25]; exact w25 m ρ c k j
  have a3 : ∀ (k : Fin 32) (j : Fin 64), V3 m ρ c main_v24 (ix2 k j) = (m ((c : Thread nD τ).loc main_arg3)) (ix2 j (hi k)) := fun k j => by
    show W3 m ρ c (Proc.devRef .tc main_v24) (ix2 k j) = _
    rw [W3_v24]; exact w24 m ρ c k j
  have a4 : ∀ j : Fin 64, V3 m ρ c main_arg4 (ix1 j) = (m ((c : Thread nD τ).loc main_arg4)) (ix1 j) := fun j => by
    show W3 m ρ c (Proc.devRef .tc main_arg4) (ix1 j) = _
    rw [W3_arg4, W1_arg4]
  have a5 : ∀ (k1 : Fin 64) (k2 : Fin 32), V3 m ρ c main_v26 (ix2 k1 k2) = (m ((c : Thread nD τ).loc main_arg5)) (ix2 k2 k1) := fun k1 k2 => by
    show W3 m ρ c (Proc.devRef .tc main_v26) (ix2 k1 k2) = _
    rw [W3_v26]; exact w26 m ρ c k1 k2
  have a6 : ∀ j : Fin 32, V3 m ρ c main_arg6 (ix1 j) = (m ((c : Thread nD τ).loc main_arg6)) (ix1 j) := fun j => by
    show W3 m ρ c (Proc.devRef .tc main_arg6) (ix1 j) = _
    rw [W3_arg6, W1_arg6]
  have a7 : ∀ k : Fin 32, V3 m ρ c main_v27 (ix2 k (0 : Fin 1)) = (m ((c : Thread nD τ).loc main_arg7)) (ix2 (0 : Fin 1) k) := fun k => by
    show W3 m ρ c (Proc.devRef .tc main_v27) (ix2 k (0 : Fin 1)) = _
    rw [W3_v27]; exact w27 m ρ c k
  have a8 : V3 m ρ c main_arg8 (ix1 (0 : Fin 1)) = (m ((c : Thread nD τ).loc main_arg8)) (ix1 (0 : Fin 1)) := by
    show W3 m ρ c (Proc.devRef .tc main_arg8) (ix1 (0 : Fin 1)) = _
    rw [W3_arg8, W1_arg8]
  unfold Blocks1.rowScore edgeScore
  simp only [a0, a1, a2, a3, a4, a5, a6, a7, a8]
  exact scoreSplit_eq _ (fun j k => (m ((c : Thread nD τ).loc main_arg3)) (ix2 j k)) _ (fun j k => (m ((c : Thread nD τ).loc main_arg5)) (ix2 j k)) _ _ _

/-- The score buffer at the end of the program holds every edge's score. -/
theorem kernel_scores (c : Dev nD) : W5 m ρ c (Proc.devRef .tc main_v34) = result m c := by
  rw [W5_v34, Blocks0.arr_final, Blocks1.arr_final]
  funext i
  obtain ⟨e, rfl⟩ : ∃ e : Fin 1000000, i = ix1 e := ⟨i 0, eq_ix1 i⟩
  rw [result_apply]
  refine (Stages.joined _ _ _ e).trans ?_
  by_cases h : e.val < 999424
  · rw [dif_pos h]
    exact main_row m ρ c ⟨e.val, h⟩ e rfl
  · rw [dif_neg h]
    exact tail_row m ρ c ⟨e.val - 999424, by omega⟩ e (by show e.val = 999424 + (e.val - 999424); omega)

/-- The mask buffer at the end of the program compares every edge's score with one half. -/
theorem kernel_mask (c : Dev nD) : W5 m ρ c (Proc.devRef .tc main_v36) = mask m c := by
  rw [W5_v36, kernel_scores]
  rfl

end Cert.KernelIdeal.Scores

end
-- ==== Proof.RefScores.lean ====
/-
  The reference program's first result is the edge-scoring network of the specification.

  The reference gathers, for every edge, the features of its source node and of its target node, lays them and the
  edge's own features end to end into a row of 160 entries, and sends the row through three dense layers (relu, relu,
  logistic).  Read one entry at a time this is exactly `Cert.EdgeScore.scores` of the two gathered arrays: the joined
  row is `row`, each dense layer is a finite sum over the contracted axis plus a bias, a relu is a maximum with zero,
  and the last three operations (negate, exponential, one over one plus) spell the logistic function.  The two
  gathered arrays are never opened: they enter both sides as the same two arrays.
-/
import proofs.«160512_j82162724372845_2_alg».proof.Proof.Gen.ReferenceIdeal.Read
import proofs.«160512_j82162724372845_2_alg».proof.Proof.Spec
import Idealize.ShloMosaic.Lib.IdealHost
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.ShloMosaic.ValueIdx

/-! ## The joined row -/

/-- Three arrays of 64, 64 and 32 columns joined along the columns, read at row `e` and column `k`: columns 0 to 63
    come from the first piece, 64 to 127 from the second (64 columns to the left), 128 to 159 from the third (128
    columns to the left).  That is the specification's feature row. -/
theorem join_apply (src tgt : (⟨2, ![1000000, 64]⟩ : Shape).Idx → EReal) (ef : (⟨2, ![1000000, 32]⟩ : Shape).Idx → EReal)
    (h : Shape.Concatenates [⟨2, ![1000000, 64]⟩, ⟨2, ![1000000, 64]⟩, ⟨2, ![1000000, 32]⟩] ⟨2, ![1000000, 160]⟩ 1)
    (e : Fin 1000000) (k : Fin 160) :
    concatenate ⟨2, ![1000000, 160]⟩ 1
        [⟨⟨2, ![1000000, 64]⟩, src⟩, ⟨⟨2, ![1000000, 64]⟩, tgt⟩, ⟨⟨2, ![1000000, 32]⟩, ef⟩] h (ix2 e k)
      = Cert.EdgeScore.row src tgt ef e k := by
  unfold Cert.EdgeScore.row
  by_cases h1 : k.val < 64
  · rw [dif_pos h1]
    exact concatenate_apply_piece (t := ⟨2, ![1000000, 160]⟩) 1
      [⟨⟨2, ![1000000, 64]⟩, src⟩, ⟨⟨2, ![1000000, 64]⟩, tgt⟩, ⟨⟨2, ![1000000, 32]⟩, ef⟩] h (ix2 e k) 0 (by show (0 : Nat) < 3; omega) ⟨2, ![1000000, 64]⟩ src rfl rfl 0 rfl
      (ix2 e ⟨k.val, h1⟩)
      (fun b hb => by
        match b with
        | ⟨0, _⟩ => rfl
        | ⟨1, _⟩ => exact absurd rfl hb)
      (by show 0 + k.val = k.val; omega)
  · rw [dif_neg h1]
    by_cases h2 : k.val < 128
    · rw [dif_pos h2]
      exact concatenate_apply_piece (t := ⟨2, ![1000000, 160]⟩) 1
        [⟨⟨2, ![1000000, 64]⟩, src⟩, ⟨⟨2, ![1000000, 64]⟩, tgt⟩, ⟨⟨2, ![1000000, 32]⟩, ef⟩] h (ix2 e k) 1 (by show (1 : Nat) < 3; omega) ⟨2, ![1000000, 64]⟩ tgt rfl rfl 64 rfl
        (ix2 e ⟨k.val - 64, by omega⟩)
        (fun b hb => by
          match b with
          | ⟨0, _⟩ => rfl
          | ⟨1, _⟩ => exact absurd rfl hb)
        (by show 64 + (k.val - 64) = k.val; omega)
    · rw [dif_neg h2]
      exact concatenate_apply_piece (t := ⟨2, ![1000000, 160]⟩) 1
        [⟨⟨2, ![1000000, 64]⟩, src⟩, ⟨⟨2, ![1000000, 64]⟩, tgt⟩, ⟨⟨2, ![1000000, 32]⟩, ef⟩] h (ix2 e k) 2 (by show (2 : Nat) < 3; omega) ⟨2, ![1000000, 32]⟩ ef rfl rfl 128 rfl
        (ix2 e ⟨k.val - 128, by omega⟩)
        (fun b hb => by
          match b with
          | ⟨0, _⟩ => rfl
          | ⟨1, _⟩ => exact absurd rfl hb)
        (by show 128 + (k.val - 128) = k.val; omega)

/-- The reference's joined array at row `e`, column `k` is the feature row of edge `e` built from the two gathered
    arrays and the edge features. -/
theorem row_apply (x0 : (⟨S100000x64, .f32⟩ : BufTy).Contents (Elt Ideal)) (x1 : (⟨S2x1000000, .i32⟩ : BufTy).Contents (Elt Ideal)) (x2 : (⟨S1000000x32, .f32⟩ : BufTy).Contents (Elt Ideal)) (e : Fin 1000000) (k : Fin 160) :
    Read.val_main_v18 (F := Ideal) x0 x1 x2 (ix2 e k)
      = Cert.EdgeScore.row (Read.val_main_v8 (F := Ideal) x0 x1) (Read.val_main_v17 (F := Ideal) x0 x1) x2 e k := by
  unfold Read.val_main_v18
  generalize Read.val_main_v8 (F := Ideal) x0 x1 = src
  generalize Read.val_main_v17 (F := Ideal) x0 x1 = tgt
  exact join_apply src tgt x2 _ e k

/-! ## The three layers -/

/-- The first layer at edge `e`, hidden unit `k1`: the edge's feature row against row `k1` of the 64 × 160 weights,
    plus the bias, through a relu. -/
theorem layer1_apply (x0 : (⟨S100000x64, .f32⟩ : BufTy).Contents (Elt Ideal)) (x1 : (⟨S2x1000000, .i32⟩ : BufTy).Contents (Elt Ideal)) (x2 : (⟨S1000000x32, .f32⟩ : BufTy).Contents (Elt Ideal)) (x3 : (⟨S64x160, .f32⟩ : BufTy).Contents (Elt Ideal)) (x4 : (⟨S64, .f32⟩ : BufTy).Contents (Elt Ideal)) (e : Fin 1000000) (k1 : Fin 64) :
    Read.val_main_v24 (F := Ideal) x0 x1 x2 x3 x4 (ix2 e k1)
      = max ((∑ k : Fin 160, Cert.EdgeScore.row (Read.val_main_v8 (F := Ideal) x0 x1) (Read.val_main_v17 (F := Ideal) x0 x1) x2 e k * x3 (ix2 k1 k)) + x4 (ix1 k1)) 0 := by
  rw [Read.val_main_v24_apply, Read.val_main_v23_apply, Read.val_main_v20_apply, Read.val_main_v22_apply,
    Read.val_main_v21_apply, Read.val_main_call0_v0_apply, Read.val_main_call0_cst_apply]
  simp only [Ideal.maximumf_def, Ideal.addf_def, Ideal.ofBits_def, Ideal.ofBits_zero_f32]
  refine congrArg₂ max (congrArg₂ (· + ·) (Finset.sum_congr rfl fun k _ => ?_) ?_) rfl
  · have el : Read.lidx_main_v20 (ix2 e k1) k = ix2 e k := funext fun a => Fin.ext (by match a with | ⟨0, _⟩ => rfl | ⟨1, _⟩ => rfl)
    have er : Read.idx_main_v19 (Read.ridx_main_v20 (ix2 e k1) k) = ix2 k1 k := funext fun a => Fin.ext (by match a with | ⟨0, _⟩ => rfl | ⟨1, _⟩ => rfl)
    rw [Read.val_main_v19_apply, el, er, row_apply]
  · exact congrArg x4 (funext fun a => Fin.ext (by match a with | ⟨0, _⟩ => rfl))

/-- The second layer at edge `e`, hidden unit `k2`: the first layer's 64 outputs against row `k2` of the 32 × 64
    weights, plus the bias, through a relu. -/
theorem layer2_apply (x0 : (⟨S100000x64, .f32⟩ : BufTy).Contents (Elt Ideal)) (x1 : (⟨S2x1000000, .i32⟩ : BufTy).Contents (Elt Ideal)) (x2 : (⟨S1000000x32, .f32⟩ : BufTy).Contents (Elt Ideal)) (x3 : (⟨S64x160, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (e : Fin 1000000) (k2 : Fin 32) :
    Read.val_main_v30 (F := Ideal) x0 x1 x2 x3 x4 x5 x6 (ix2 e k2)
      = max ((∑ k1 : Fin 64, Read.val_main_v24 (F := Ideal) x0 x1 x2 x3 x4 (ix2 e k1) * x5 (ix2 k2 k1)) + x6 (ix1 k2)) 0 := by
  rw [Read.val_main_v30_apply, Read.val_main_v29_apply, Read.val_main_v26_apply, Read.val_main_v28_apply,
    Read.val_main_v27_apply, Read.val_main_call1_v0_apply, Read.val_main_call1_cst_apply]
  simp only [Ideal.maximumf_def, Ideal.addf_def, Ideal.ofBits_def, Ideal.ofBits_zero_f32]
  refine congrArg₂ max (congrArg₂ (· + ·) (Finset.sum_congr rfl fun k _ => ?_) ?_) rfl
  · have el : Read.lidx_main_v26 (ix2 e k2) k = ix2 e k := funext fun a => Fin.ext (by match a with | ⟨0, _⟩ => rfl | ⟨1, _⟩ => rfl)
    have er : Read.idx_main_v25 (Read.ridx_main_v26 (ix2 e k2) k) = ix2 k2 k := funext fun a => Fin.ext (by match a with | ⟨0, _⟩ => rfl | ⟨1, _⟩ => rfl)
    rw [Read.val_main_v25_apply, el, er]
  · exact congrArg x6 (funext fun a => Fin.ext (by match a with | ⟨0, _⟩ => rfl))

/-- The third layer at edge `e`: the second layer's 32 outputs against the single row of the 1 × 32 weights, plus
    the bias. -/
theorem layer3_apply (x0 : (⟨S100000x64, .f32⟩ : BufTy).Contents (Elt Ideal)) (x1 : (⟨S2x1000000, .i32⟩ : BufTy).Contents (Elt Ideal)) (x2 : (⟨S1000000x32, .f32⟩ : BufTy).Contents (Elt Ideal)) (x3 : (⟨S64x160, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) (e : Fin 1000000) :
    Read.val_main_v35 (F := Ideal) x0 x1 x2 x3 x4 x5 x6 x7 x8 (ix2 e (0 : Fin 1))
      = (∑ k2 : Fin 32, Read.val_main_v30 (F := Ideal) x0 x1 x2 x3 x4 x5 x6 (ix2 e k2) * x7 (ix2 (0 : Fin 1) k2))
          + x8 (ix1 (0 : Fin 1)) := by
  rw [Read.val_main_v35_apply, Read.val_main_v32_apply, Read.val_main_v34_apply, Read.val_main_v33_apply]
  simp only [Ideal.addf_def]
  refine congrArg₂ (· + ·) (Finset.sum_congr rfl fun k _ => ?_) ?_
  · have el : Read.lidx_main_v32 (ix2 e (0 : Fin 1)) k = ix2 e k := funext fun a => Fin.ext (by match a with | ⟨0, _⟩ => rfl | ⟨1, _⟩ => rfl)
    have er : Read.idx_main_v31 (Read.ridx_main_v32 (ix2 e (0 : Fin 1)) k) = ix2 (0 : Fin 1) k := funext fun a => Fin.ext (by match a with | ⟨0, _⟩ => rfl | ⟨1, _⟩ => rfl)
    rw [Read.val_main_v31_apply, el, er]
  · exact congrArg x8 (funext fun a => Fin.ext (by match a with | ⟨0, _⟩ => rfl))

/-! ## The result -/

/-- The reference's first result is every edge's score: the last three operations, one over one plus the exponential
    of the negated third layer, are the logistic function. -/
theorem ref_scores (x0 : (⟨S100000x64, .f32⟩ : BufTy).Contents (Elt Ideal)) (x1 : (⟨S2x1000000, .i32⟩ : BufTy).Contents (Elt Ideal)) (x2 : (⟨S1000000x32, .f32⟩ : BufTy).Contents (Elt Ideal)) (x3 : (⟨S64x160, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) :
    Cert.ReferenceIdeal.Read.val_main_v42 (F := Ideal) x0 x1 x2 x3 x4 x5 x6 x7 x8
      = Cert.EdgeScore.scores (Cert.ReferenceIdeal.Read.val_main_v8 (F := Ideal) x0 x1) (Cert.ReferenceIdeal.Read.val_main_v17 (F := Ideal) x0 x1) x2 x3 x4 x5 x6 x7 x8 := by
  funext i
  obtain ⟨e, rfl⟩ : ∃ e : Fin 1000000, i = ix1 e := ⟨i 0, eq_ix1 i⟩
  have ei : Read.idx_main_v36 (ix1 e) = ix2 e (0 : Fin 1) :=
    funext fun a => Fin.ext (by match a with | ⟨0, _⟩ => exact Nat.div_one _ | ⟨1, _⟩ => rfl)
  rw [Read.val_main_v42_apply, Read.val_main_v41_apply, Read.val_main_cst_3_apply, Read.val_main_v40_apply,
    Read.val_main_v39_apply, Read.val_main_cst_apply, Read.val_main_v38_apply, Read.val_main_v37_apply,
    Read.val_main_v36_apply, ei, layer3_apply]
  simp only [layer2_apply, layer1_apply, Ideal.hostDivf_def, Ideal.addf_def, Ideal.hostUnary_exp_def,
    Ideal.hostNegf_def, Ideal.negf_def, Ideal.ofBits_def, Ideal.ofBits_one_f32]
  unfold Cert.EdgeScore.scores Cert.EdgeScore.score Ideal.logistic
  rfl

end Cert.ReferenceIdeal.RefValue

end
-- ==== Proof.lean ====
/-
  An edge-scoring layer of a graph network, in two programs, shown equal on the extended reals.

  For each of a million edges both programs gather the 64 features of the edge's source node and of its target node,
  put them beside the edge's own 32 features, and push that row of 160 numbers through a three-layer perceptron
  (160 → 64, relu; 64 → 32, relu; 32 → 1) followed by the logistic function; the second result marks the edges whose
  score is at least one half.

  The reference does this with three whole matrix products.  The kernel program packs source and target features into
  one array of 128 columns, keeps the edge features apart, and splits the first weight matrix accordingly: its first
  layer is a product over 128 entries plus a product over 32 entries.  It runs the network in two launches — 244
  blocks of 4096 edges, then the remaining 576 — and joins the two score vectors.  On the extended reals sums are
  commutative and associative, so the 128-entry sum plus the 32-entry sum is the 160-entry sum, whatever the
  entries; rounding to a shorter float format is the identity there, and the kernel's logistic is the reference's
  1 / (1 + exp (−x)).  Nothing in the comparison needs the inputs to be finite.

  The two gathers are the same operations on the same arguments in both programs and are carried along unopened.

  Modules: Spec (the network as one function, and the split of the first sum), Payload0 / Payload1 (the kernel body's
  arithmetic at an entry, per launch), Blocks0 / Blocks1 (from a launch's blocks to its whole output array),
  HostStages and StageReads (what the host operations around the launches leave, read at an entry), KernelRun (the
  whole program's run with its results named), KernelValue (the kernel program's results as functions of the launch
  memory), RefScores (the reference's result as the same function).
-/
import proofs.«160512_j82162724372845_2_alg».proof.Defs
import proofs.«160512_j82162724372845_2_alg».proof.Proof.Gen.Kernel
import proofs.«160512_j82162724372845_2_alg».proof.Proof.Gen.Kernel.Frame
import proofs.«160512_j82162724372845_2_alg».proof.Proof.Gen.KernelIdeal
import proofs.«160512_j82162724372845_2_alg».proof.Proof.Gen.KernelIdeal.Frame
import proofs.«160512_j82162724372845_2_alg».proof.Proof.Gen.ReferenceIdeal
import proofs.«160512_j82162724372845_2_alg».proof.Proof.Gen.ReferenceIdeal.Run
import proofs.«160512_j82162724372845_2_alg».proof.Proof.Gen.ReferenceIdeal.Read
import proofs.«160512_j82162724372845_2_alg».proof.Proof.Gen.Pre_finite_inputs
import proofs.«160512_j82162724372845_2_alg».proof.Proof.KernelRun
import proofs.«160512_j82162724372845_2_alg».proof.Proof.KernelValue
import proofs.«160512_j82162724372845_2_alg».proof.Proof.RefScores

set_option maxRecDepth 16384

noncomputable section

namespace Cert.Proof

open Idealize.ShloMosaic Idealize.ShloMosaic.TcCoe Idealize.SL.Sem

/-- The kernel program as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with every edge's score in the first result and the comparison with one half in the second:
    the kernel program by its run and the value of its last boundary, the reference by its run read as the same
    function, the arguments agreeing. -/
theorem algebraic : Cert.algebraic_KernelIdeal_ReferenceIdeal := by
  intro m ρ m' ρ' _ hagree
  refine ⟨fun c => Cert.KernelIdeal.Scores.result m c, fun c => Cert.KernelIdeal.Scores.mask m c, ?_, ?_⟩
  · exact (θ_run Cert.KernelIdeal.defs _ _).mono
      (fun r h c => ⟨(h c).1.trans (Cert.KernelIdeal.Scores.kernel_scores m ρ c),
        (h c).2.1.trans (Cert.KernelIdeal.Scores.kernel_mask m ρ c), (h c).2.2⟩)
      (Cert.KernelIdeal.RunValue.run_full (F := Ideal) m ρ)
  · refine (θ_run Cert.ReferenceIdeal.defs _ _).mono (fun r h c => ⟨?_, ?_, (h c).2.2⟩)
      (Cert.ReferenceIdeal.Value.run (F := Ideal) m' ρ')
    · refine (h c).1.trans ?_
      rw [Cert.ReferenceIdeal.Read.val_main_v42_eq, Cert.ReferenceIdeal.RefValue.ref_scores]
      obtain ⟨a0, a1, a2, a3, a4, a5, a6, a7, a8⟩ := hagree c
      rw [a0, a1, a2, a3, a4, a5, a6, a7, a8]
      rfl
    · refine (h c).2.1.trans ?_
      rw [Cert.ReferenceIdeal.Read.val_main_v44_eq]
      unfold Cert.ReferenceIdeal.Read.val_main_v44
      rw [Cert.ReferenceIdeal.RefValue.ref_scores]
      obtain ⟨a0, a1, a2, a3, a4, a5, a6, a7, a8⟩ := hagree c
      rw [a0, a1, a2, a3, a4, a5, a6, a7, a8]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
